-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v15)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v15) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v14) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x512x1024 : Shape := ⟨3, ![64, 512, 1024]⟩
abbrev S64x512x17 : Shape := ⟨3, ![64, 512, 17]⟩
abbrev S64x512x4 : Shape := ⟨3, ![64, 512, 4]⟩
abbrev S64x512x17x3 : Shape := ⟨4, ![64, 512, 17, 3]⟩
abbrev S64x512 : Shape := ⟨2, ![64, 512]⟩
abbrev S1024x1041 : Shape := ⟨2, ![1024, 1041]⟩
abbrev S1024 : Shape := ⟨1, ![1024]⟩
abbrev S1024x55 : Shape := ⟨2, ![1024, 55]⟩
abbrev S_ : Shape := ⟨0, ![]⟩

class Facts : Prop where
  bcast_S_S64x512x1024 : S_.BroadcastsInDim S64x512x1024 (![] : Fin 0 → Fin S64x512x1024.rank)
  reducesTo_S64x512x1024_S_d0_1_2 : S64x512x1024.ReducesTo [0, 1, 2] S_
  h_S_ : 0 < S_.numel
  bcast_S_S64x512x17 : S_.BroadcastsInDim S64x512x17 (![] : Fin 0 → Fin S64x512x17.rank)
  reducesTo_S64x512x17_S_d0_1_2 : S64x512x17.ReducesTo [0, 1, 2] S_
  bcast_S_S64x512x4 : S_.BroadcastsInDim S64x512x4 (![] : Fin 0 → Fin S64x512x4.rank)
  reducesTo_S64x512x4_S_d0_1_2 : S64x512x4.ReducesTo [0, 1, 2] S_
  bcast_S_S64x512x17x3 : S_.BroadcastsInDim S64x512x17x3 (![] : Fin 0 → Fin S64x512x17x3.rank)
  reducesTo_S64x512x17x3_S_d0_1_2_3 : S64x512x17x3.ReducesTo [0, 1, 2, 3] S_
  bcast_S_S1024x1041 : S_.BroadcastsInDim S1024x1041 (![] : Fin 0 → Fin S1024x1041.rank)
  reducesTo_S1024x1041_S_d0_1 : S1024x1041.ReducesTo [0, 1] S_
  bcast_S_S1024 : S_.BroadcastsInDim S1024 (![] : Fin 0 → Fin S1024.rank)
  reducesTo_S1024_S_d0 : S1024.ReducesTo [0] S_
  bcast_S_S1024x55 : S_.BroadcastsInDim S1024x55 (![] : Fin 0 → Fin S1024x55.rank)
  reducesTo_S1024x55_S_d0_1 : S1024x55.ReducesTo [0, 1] S_

variable [Facts]

def fn_part2 {F : FTy → Type} [FloatOps F] (main_arg8 : FVec F S1024 .f32) (main_v33 : IVec S_ 1) : IVec S_ 1 :=
  let main_v34 : FVec F S1024 .f32 := Host.absf main_arg8
  let main_cst_12 : FVec F S_ .f32 := constant S_ .f32 0x7F800000#32
  let main_v35 : FVec F S1024 .f32 := broadcastInDim S1024 ![] bcast_S_S1024 main_cst_12
  let main_v36 : IVec S1024 1 := cmpf .olt main_v34 main_v35
  let main_c_13 : IVec S_ 1 := constantI S_ 1 1#1
  let main_v37 : IVec S_ 1 := (fun x v => Host.reduce IntOp.andi x v reducesTo_S1024_S_d0 h_S_) main_v36 main_c_13
  let main_v38 : IVec S_ 1 := andi main_v33 main_v37
  main_v38

def fn_part1 {F : FTy → Type} [FloatOps F] (main_arg5 : FVec F S1024x1041 .f32) (main_arg6 : FVec F S1024 .f32) (main_arg7 : FVec F S1024x55 .f32) (main_arg8 : FVec F S1024 .f32) (main_v13 : IVec S_ 1) (main_v16 : IVec S64x512x17x3 1) : IVec S_ 1 :=
  let main_c_5 : IVec S_ 1 := constantI S_ 1 1#1
  let main_v17 : IVec S_ 1 := (fun x v => Host.reduce IntOp.andi x v reducesTo_S64x512x17x3_S_d0_1_2_3 h_S_) main_v16 main_c_5
  let main_v18 : IVec S_ 1 := andi main_v13 main_v17
  let main_v19 : FVec F S1024x1041 .f32 := Host.absf main_arg5
  let main_cst_6 : FVec F S_ .f32 := constant S_ .f32 0x7F800000#32
  let main_v20 : FVec F S1024x1041 .f32 := broadcastInDim S1024x1041 ![] bcast_S_S1024x1041 main_cst_6
  let main_v21 : IVec S1024x1041 1 := cmpf .olt main_v19 main_v20
  let main_c_7 : IVec S_ 1 := constantI S_ 1 1#1
  let main_v22 : IVec S_ 1 := (fun x v => Host.reduce IntOp.andi x v reducesTo_S1024x1041_S_d0_1 h_S_) main_v21 main_c_7
  let main_v23 : IVec S_ 1 := andi main_v18 main_v22
  let main_v24 : FVec F S1024 .f32 := Host.absf main_arg6
  let main_cst_8 : FVec F S_ .f32 := constant S_ .f32 0x7F800000#32
  let main_v25 : FVec F S1024 .f32 := broadcastInDim S1024 ![] bcast_S_S1024 main_cst_8
  let main_v26 : IVec S1024 1 := cmpf .olt main_v24 main_v25
  let main_c_9 : IVec S_ 1 := constantI S_ 1 1#1
  let main_v27 : IVec S_ 1 := (fun x v => Host.reduce IntOp.andi x v reducesTo_S1024_S_d0 h_S_) main_v26 main_c_9
  let main_v28 : IVec S_ 1 := andi main_v23 main_v27
  let main_v29 : FVec F S1024x55 .f32 := Host.absf main_arg7
  let main_cst_10 : FVec F S_ .f32 := constant S_ .f32 0x7F800000#32
  let main_v30 : FVec F S1024x55 .f32 := broadcastInDim S1024x55 ![] bcast_S_S1024x55 main_cst_10
  let main_v31 : IVec S1024x55 1 := cmpf .olt main_v29 main_v30
  let main_c_11 : IVec S_ 1 := constantI S_ 1 1#1
  let main_v32 : IVec S_ 1 := (fun x v => Host.reduce IntOp.andi x v reducesTo_S1024x55_S_d0_1 h_S_) main_v31 main_c_11
  let main_v33 : IVec S_ 1 := andi main_v28 main_v32
  fn_part2 (F := F) main_arg8 main_v33

def fn {F : FTy → Type} [FloatOps F] (main_arg0 : FVec F S64x512x1024 .f32) (main_arg1 : FVec F S64x512x17 .f32) (main_arg2 : FVec F S64x512x4 .f32) (main_arg3 : FVec F S64x512x17x3 .f32) (main_arg4 : IVec S64x512 1) (main_arg5 : FVec F S1024x1041 .f32) (main_arg6 : FVec F S1024 .f32) (main_arg7 : FVec F S1024x55 .f32) (main_arg8 : FVec F S1024 .f32) : IVec S_ 1 :=
  let main_v0 : FVec F S64x512x1024 .f32 := Host.absf main_arg0
  let main_cst : FVec F S_ .f32 := constant S_ .f32 0x7F800000#32
  let main_v1 : FVec F S64x512x1024 .f32 := broadcastInDim S64x512x1024 ![] bcast_S_S64x512x1024 main_cst
  let main_v2 : IVec S64x512x1024 1 := cmpf .olt main_v0 main_v1
  let main_c : IVec S_ 1 := constantI S_ 1 1#1
  let main_v3 : IVec S_ 1 := (fun x v => Host.reduce IntOp.andi x v reducesTo_S64x512x1024_S_d0_1_2 h_S_) main_v2 main_c
  let main_v4 : FVec F S64x512x17 .f32 := Host.absf main_arg1
  let main_cst_0 : FVec F S_ .f32 := constant S_ .f32 0x7F800000#32
  let main_v5 : FVec F S64x512x17 .f32 := broadcastInDim S64x512x17 ![] bcast_S_S64x512x17 main_cst_0
  let main_v6 : IVec S64x512x17 1 := cmpf .olt main_v4 main_v5
  let main_c_1 : IVec S_ 1 := constantI S_ 1 1#1
  let main_v7 : IVec S_ 1 := (fun x v => Host.reduce IntOp.andi x v reducesTo_S64x512x17_S_d0_1_2 h_S_) main_v6 main_c_1
  let main_v8 : IVec S_ 1 := andi main_v3 main_v7
  let main_v9 : FVec F S64x512x4 .f32 := Host.absf main_arg2
  let main_cst_2 : FVec F S_ .f32 := constant S_ .f32 0x7F800000#32
  let main_v10 : FVec F S64x512x4 .f32 := broadcastInDim S64x512x4 ![] bcast_S_S64x512x4 main_cst_2
  let main_v11 : IVec S64x512x4 1 := cmpf .olt main_v9 main_v10
  let main_c_3 : IVec S_ 1 := constantI S_ 1 1#1
  let main_v12 : IVec S_ 1 := (fun x v => Host.reduce IntOp.andi x v reducesTo_S64x512x4_S_d0_1_2 h_S_) main_v11 main_c_3
  let main_v13 : IVec S_ 1 := andi main_v8 main_v12
  let main_v14 : FVec F S64x512x17x3 .f32 := Host.absf main_arg3
  let main_cst_4 : FVec F S_ .f32 := constant S_ .f32 0x7F800000#32
  let main_v15 : FVec F S64x512x17x3 .f32 := broadcastInDim S64x512x17x3 ![] bcast_S_S64x512x17x3 main_cst_4
  let main_v16 : IVec S64x512x17x3 1 := cmpf .olt main_v14 main_v15
  fn_part1 (F := F) main_arg5 main_arg6 main_arg7 main_arg8 main_v13 main_v16
-- ==== Kernel.lean ====
abbrev S64x512x1024 : Shape := ⟨3, ![64, 512, 1024]⟩
abbrev S64x512x17 : Shape := ⟨3, ![64, 512, 17]⟩
abbrev S64x512x4 : Shape := ⟨3, ![64, 512, 4]⟩
abbrev S64x512x17x3 : Shape := ⟨4, ![64, 512, 17, 3]⟩
abbrev S64x512 : Shape := ⟨2, ![64, 512]⟩
abbrev S1024x1041 : Shape := ⟨2, ![1024, 1041]⟩
abbrev S1024 : Shape := ⟨1, ![1024]⟩
abbrev S1024x55 : Shape := ⟨2, ![1024, 55]⟩
abbrev S64x512x51 : Shape := ⟨3, ![64, 512, 51]⟩
abbrev S64x512x1 : Shape := ⟨3, ![64, 512, 1]⟩
abbrev S64x512x72 : Shape := ⟨3, ![64, 512, 72]⟩
abbrev S1041x1024 : Shape := ⟨2, ![1041, 1024]⟩
abbrev S1024x1024 : Shape := ⟨2, ![1024, 1024]⟩
abbrev S17x1024 : Shape := ⟨2, ![17, 1024]⟩
abbrev S55x1024 : Shape := ⟨2, ![55, 1024]⟩
abbrev S4x1024 : Shape := ⟨2, ![4, 1024]⟩
abbrev S51x1024 : Shape := ⟨2, ![51, 1024]⟩
abbrev S72x1024 : Shape := ⟨2, ![72, 1024]⟩
abbrev S1x1024 : Shape := ⟨2, ![1, 1024]⟩
abbrev S1x512x1024 : Shape := ⟨3, ![1, 512, 1024]⟩
abbrev S1x512x72 : Shape := ⟨3, ![1, 512, 72]⟩
abbrev S1x512x1 : Shape := ⟨3, ![1, 512, 1]⟩
abbrev S512x1024 : Shape := ⟨2, ![512, 1024]⟩
abbrev S512x72 : Shape := ⟨2, ![512, 72]⟩
abbrev S512x1 : Shape := ⟨2, ![512, 1]⟩

abbrev nBuf : Space → Nat
  | .hbm => 25
  | .vmem => 11
  | .smem => 0
  | _ => 0

abbrev bufTy : (tb : Table) → Fin (tcTables nBuf tb) → BufTy
  | .hbm, ⟨0, _⟩ => ⟨S64x512x1024, .f32⟩
  | .hbm, ⟨1, _⟩ => ⟨S64x512x17, .f32⟩
  | .hbm, ⟨2, _⟩ => ⟨S64x512x4, .f32⟩
  | .hbm, ⟨3, _⟩ => ⟨S64x512x17x3, .f32⟩
  | .hbm, ⟨4, _⟩ => ⟨S64x512, .i1⟩
  | .hbm, ⟨5, _⟩ => ⟨S1024x1041, .f32⟩
  | .hbm, ⟨6, _⟩ => ⟨S1024, .f32⟩
  | .hbm, ⟨7, _⟩ => ⟨S1024x55, .f32⟩
  | .hbm, ⟨8, _⟩ => ⟨S1024, .f32⟩
  | .hbm, ⟨9, _⟩ => ⟨S64x512x51, .f32⟩
  | .hbm, ⟨10, _⟩ => ⟨S64x512, .f32⟩
  | .hbm, ⟨11, _⟩ => ⟨S64x512x1, .f32⟩
  | .hbm, ⟨12, _⟩ => ⟨S64x512x72, .f32⟩
  | .hbm, ⟨13, _⟩ => ⟨S1041x1024, .f32⟩
  | .hbm, ⟨14, _⟩ => ⟨S1024x1024, .f32⟩
  | .hbm, ⟨15, _⟩ => ⟨S1024x1024, .bf16⟩
  | .hbm, ⟨16, _⟩ => ⟨S17x1024, .f32⟩
  | .hbm, ⟨17, _⟩ => ⟨S55x1024, .f32⟩
  | .hbm, ⟨18, _⟩ => ⟨S4x1024, .f32⟩
  | .hbm, ⟨19, _⟩ => ⟨S51x1024, .f32⟩
  | .hbm, ⟨20, _⟩ => ⟨S72x1024, .f32⟩
  | .hbm, ⟨21, _⟩ => ⟨S72x1024, .bf16⟩
  | .hbm, ⟨22, _⟩ => ⟨S1024, .f32⟩
  | .hbm, ⟨23, _⟩ => ⟨S1x1024, .f32⟩
  | .hbm, ⟨24, _⟩ => ⟨S64x512x1024, .f32⟩
  | .local _ .vmem, ⟨0, _⟩ => ⟨S1x512x1024, .f32⟩
  | .local _ .vmem, ⟨1, _⟩ => ⟨S1x512x1024, .f32⟩
  | .local _ .vmem, ⟨2, _⟩ => ⟨S1x512x72, .f32⟩
  | .local _ .vmem, ⟨3, _⟩ => ⟨S1x512x72, .f32⟩
  | .local _ .vmem, ⟨4, _⟩ => ⟨S1x512x1, .f32⟩
  | .local _ .vmem, ⟨5, _⟩ => ⟨S1x512x1, .f32⟩
  | .local _ .vmem, ⟨6, _⟩ => ⟨S1024x1024, .bf16⟩
  | .local _ .vmem, ⟨7, _⟩ => ⟨S72x1024, .bf16⟩
  | .local _ .vmem, ⟨8, _⟩ => ⟨S1x1024, .f32⟩
  | .local _ .vmem, ⟨9, _⟩ => ⟨S1x512x1024, .f32⟩
  | .local _ .vmem, ⟨10, _⟩ => ⟨S1x512x1024, .f32⟩
  | _, _ => ⟨S64x512x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨1, ![64], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x512x72 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x512x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S72x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S1x512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

class Facts₀ : Prop where
  shapeCasts_S64x512x17x3_S64x512x51 : S64x512x17x3.ShapeCasts S64x512x51
  bcast_S64x512_S64x512x1_0_1 : S64x512.BroadcastsInDim S64x512x1 (![0, 1] : Fin 2 → Fin S64x512x1.rank)
  concatenates_S64x512x17_S64x512x4_S64x512x51_S64x512x72_d2 : Shape.Concatenates [S64x512x17, S64x512x4, S64x512x51] S64x512x72 2
  transposes_S1024x1041_S1041x1024_1_0 : S1024x1041.Transposes [1, 0] S1041x1024
  slices_S1041x1024_S1024x1024_0_0 : S1041x1024.Slices ![0, 0] S1024x1024
  bitsLt_bf16_f32 : FTy.bits .bf16 < FTy.bits .f32
  slices_S1041x1024_S17x1024_1024_0 : S1041x1024.Slices ![1024, 0] S17x1024
  transposes_S1024x55_S55x1024_1_0 : S1024x55.Transposes [1, 0] S55x1024
  slices_S55x1024_S4x1024_0_0 : S55x1024.Slices ![0, 0] S4x1024
  slices_S55x1024_S51x1024_4_0 : S55x1024.Slices ![4, 0] S51x1024
  concatenates_S17x1024_S4x1024_S51x1024_S72x1024_d0 : Shape.Concatenates [S17x1024, S4x1024, S51x1024] S72x1024 0
  shapeCasts_S1024_S1x1024 : S1024.ShapeCasts S1x1024
  inb_S1x512x1024_S1x512x1024_0_0_0 : ∀ a, (![0, 0, 0] : Fin 3 → Nat) a + S1x512x1024.size a ≤ S1x512x1024.size a
  h_S1x512x1024 : 0 < S1x512x1024.numel
  shapeCasts_S1x512x1024_S512x1024 : S1x512x1024.ShapeCasts S512x1024
  inb_S1x512x72_S1x512x72_0_0_0 : ∀ a, (![0, 0, 0] : Fin 3 → Nat) a + S1x512x72.size a ≤ S1x512x72.size a
  h_S1x512x72 : 0 < S1x512x72.numel
  shapeCasts_S1x512x72_S512x72 : S1x512x72.ShapeCasts S512x72
  inb_S1x512x1_S1x512x1_0_0_0 : ∀ a, (![0, 0, 0] : Fin 3 → Nat) a + S1x512x1.size a ≤ S1x512x1.size a
  h_S1x512x1 : 0 < S1x512x1.numel
  shapeCasts_S1x512x1_S512x1 : S1x512x1.ShapeCasts S512x1
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S72x1024_S72x1024_0_0 : ∀ a, (![0, 0] : Fin 2 → Nat) a + S72x1024.size a ≤ S72x1024.size a
  h_S72x1024 : 0 < S72x1024.numel
  shapeCasts_S72x1024_S72x1024 : S72x1024.ShapeCasts S72x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S512x1024 : S1x1024.Broadcasts S512x1024
  broadcasts_S512x1_S512x1024 : S512x1.Broadcasts S512x1024
  shapeCasts_S512x1024_S1x512x1024 : S512x1024.ShapeCasts S1x512x1024
  dot_S512x1024_S1024x1024_S512x1024_1_0_0_1_n_n_wf : DotDims.WF S512x1024 S1024x1024 S512x1024 [1] [0] [0] [1] [] []
  dot_S512x72_S72x1024_S512x1024_1_0_0_1_n_n_wf : DotDims.WF S512x72 S72x1024 S512x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x512x1024.size a ≤ S64x512x1024.size a
  hwx0_0 : ∀ i : grid0.Coords, EltTy.bits .f32 = 32 ∨ (Rect.block (s := S64x512x1024) S1x512x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x512x72.size a ≤ S64x512x72.size a
  hwx0_1 : ∀ i : grid0.Coords, EltTy.bits .f32 = 32 ∨ (Rect.block (s := S64x512x72) S1x512x72.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x512x1.size a ≤ S64x512x1.size a
  hwx0_2 : ∀ i : grid0.Coords, EltTy.bits .f32 = 32 ∨ (Rect.block (s := S64x512x1) S1x512x1.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1024x1024.size a ≤ S1024x1024.size a
  hwx0_3 : ∀ i : grid0.Coords, EltTy.bits .bf16 = 32 ∨ (Rect.block (s := S1024x1024) S1024x1024.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S72x1024.size a ≤ S72x1024.size a
  hwx0_4 : ∀ i : grid0.Coords, EltTy.bits .bf16 = 32 ∨ (Rect.block (s := S72x1024) S72x1024.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x1024.size a ≤ S1x1024.size a
  hwx0_5 : ∀ i : grid0.Coords, EltTy.bits .f32 = 32 ∨ (Rect.block (s := S1x1024) S1x1024.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1x512x1024.size a ≤ S64x512x1024.size a
  hwx0_6 : ∀ i : grid0.Coords, EltTy.bits .f32 = 32 ∨ (Rect.block (s := S64x512x1024) S1x512x1024.size (cc0_transform_6 i) (hinb0_6 i)).WholeWords (EltTy.packing .f32)

variable [Facts₀]

def dot_S512x1024_S1024x1024_S512x1024_1_0_0_1_n_n : DotDims S512x1024 S1024x1024 S512x1024 where
  lhsContracting := [1]
  rhsContracting := [0]
  lhsNonContracting := [0]
  rhsNonContracting := [1]
  lhsBatch := []
  rhsBatch := []
  wf := dot_S512x1024_S1024x1024_S512x1024_1_0_0_1_n_n_wf
def dot_S512x72_S72x1024_S512x1024_1_0_0_1_n_n : DotDims S512x72 S72x1024 S512x1024 where
  lhsContracting := [1]
  rhsContracting := [0]
  lhsNonContracting := [0]
  rhsNonContracting := [1]
  lhsBatch := []
  rhsBatch := []
  wf := dot_S512x72_S72x1024_S512x1024_1_0_0_1_n_n_wf

abbrev win0_0 : Pipeline.Window sig grid0 :=
  Pipeline.Window.ofSpec (Memref.whole main_arg0) S1x512x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v3) S1x512x72.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1x512x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v6) S1024x1024.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v12) S72x1024.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v14) S1x1024.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v15) S1x512x1024.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S64x512x1024 : Shape := ⟨3, ![64, 512, 1024]⟩
abbrev S64x512x17 : Shape := ⟨3, ![64, 512, 17]⟩
abbrev S64x512x4 : Shape := ⟨3, ![64, 512, 4]⟩
abbrev S64x512x17x3 : Shape := ⟨4, ![64, 512, 17, 3]⟩
abbrev S64x512 : Shape := ⟨2, ![64, 512]⟩
abbrev S1024x1041 : Shape := ⟨2, ![1024, 1041]⟩
abbrev S1024 : Shape := ⟨1, ![1024]⟩
abbrev S1024x55 : Shape := ⟨2, ![1024, 55]⟩
abbrev S64x512x1041 : Shape := ⟨3, ![64, 512, 1041]⟩
abbrev S64x512x51 : Shape := ⟨3, ![64, 512, 51]⟩
abbrev S64x512x55 : Shape := ⟨3, ![64, 512, 55]⟩
abbrev S64x512x1 : Shape := ⟨3, ![64, 512, 1]⟩
abbrev S1x1x1024 : Shape := ⟨3, ![1, 1, 1024]⟩
abbrev S_ : Shape := ⟨0, ![]⟩

abbrev nBuf : Space → Nat
  | .hbm => 32
  | .vmem => 0
  | .smem => 0
  | _ => 0

abbrev bufTy : (tb : Table) → Fin (tcTables nBuf tb) → BufTy
  | .hbm, ⟨0, _⟩ => ⟨S64x512x1024, .f32⟩
  | .hbm, ⟨1, _⟩ => ⟨S64x512x17, .f32⟩
  | .hbm, ⟨2, _⟩ => ⟨S64x512x4, .f32⟩
  | .hbm, ⟨3, _⟩ => ⟨S64x512x17x3, .f32⟩
  | .hbm, ⟨4, _⟩ => ⟨S64x512, .i1⟩
  | .hbm, ⟨5, _⟩ => ⟨S1024x1041, .f32⟩
  | .hbm, ⟨6, _⟩ => ⟨S1024, .f32⟩
  | .hbm, ⟨7, _⟩ => ⟨S1024x55, .f32⟩
  | .hbm, ⟨8, _⟩ => ⟨S1024, .f32⟩
  | .hbm, ⟨9, _⟩ => ⟨S64x512x1041, .f32⟩
  | .hbm, ⟨10, _⟩ => ⟨S64x512x51, .f32⟩
  | .hbm, ⟨11, _⟩ => ⟨S64x512x55, .f32⟩
  | .hbm, ⟨12, _⟩ => ⟨S64x512x1, .i1⟩
  | .hbm, ⟨13, _⟩ => ⟨S64x512x1024, .f32⟩
  | .hbm, ⟨14, _⟩ => ⟨S1x1x1024, .f32⟩
  | .hbm, ⟨15, _⟩ => ⟨S64x512x1024, .f32⟩
  | .hbm, ⟨16, _⟩ => ⟨S64x512x1024, .f32⟩
  | .hbm, ⟨17, _⟩ => ⟨S_, .f32⟩
  | .hbm, ⟨18, _⟩ => ⟨S_, .f32⟩
  | .hbm, ⟨19, _⟩ => ⟨S64x512x1024, .i1⟩
  | .hbm, ⟨20, _⟩ => ⟨S64x512x1024, .f32⟩
  | .hbm, ⟨21, _⟩ => ⟨S64x512x1024, .f32⟩
  | .hbm, ⟨22, _⟩ => ⟨S64x512x1024, .f32⟩
  | .hbm, ⟨23, _⟩ => ⟨S1x1x1024, .f32⟩
  | .hbm, ⟨24, _⟩ => ⟨S64x512x1024, .f32⟩
  | .hbm, ⟨25, _⟩ => ⟨S64x512x1024, .f32⟩
  | .hbm, ⟨26, _⟩ => ⟨S_, .f32⟩
  | .hbm, ⟨27, _⟩ => ⟨S_, .f32⟩
  | .hbm, ⟨28, _⟩ => ⟨S64x512x1024, .i1⟩
  | .hbm, ⟨29, _⟩ => ⟨S64x512x1024, .f32⟩
  | .hbm, ⟨30, _⟩ => ⟨S64x512x1024, .f32⟩
  | .hbm, ⟨31, _⟩ => ⟨S64x512x1024, .f32⟩
  | _, _ => ⟨S64x512x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_cst : Ref sig .tc := ⟨.hbm, 17, rfl⟩
abbrev main_call0_v0 : Ref sig .tc := ⟨.hbm, 18, rfl⟩
abbrev main_call0_v1 : Ref sig .tc := ⟨.hbm, 19, rfl⟩
abbrev main_call0_v2 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_cst_0 : Ref sig .tc := ⟨.hbm, 26, rfl⟩
abbrev main_call1_v0 : Ref sig .tc := ⟨.hbm, 27, rfl⟩
abbrev main_call1_v1 : Ref sig .tc := ⟨.hbm, 28, rfl⟩
abbrev main_call1_v2 : Ref sig .tc := ⟨.hbm, 29, rfl⟩
abbrev main_v13 : Ref sig .tc := ⟨.hbm, 30, rfl⟩
abbrev main_v14 : Ref sig .tc := ⟨.hbm, 31, rfl⟩

abbrev nD : Nat := 1
abbrev τ : Topo := Topo.v7x

variable {F : FTy → Type} [FloatOps F]

class Facts₀ : Prop where
  concatenates_S64x512x1024_S64x512x17_S64x512x1041_d2 : Shape.Concatenates [S64x512x1024, S64x512x17] S64x512x1041 2
  shapeCasts_S64x512x17x3_S64x512x51 : S64x512x17x3.ShapeCasts S64x512x51
  concatenates_S64x512x4_S64x512x51_S64x512x55_d2 : Shape.Concatenates [S64x512x4, S64x512x51] S64x512x55 2
  bcast_S64x512_S64x512x1_0_1 : S64x512.BroadcastsInDim S64x512x1 (![0, 1] : Fin 2 → Fin S64x512x1.rank)
  bcast_S1024_S1x1x1024_2 : S1024.BroadcastsInDim S1x1x1024 (![2] : Fin 1 → Fin S1x1x1024.rank)
  bcast_S1x1x1024_S64x512x1024_0_1_2 : S1x1x1024.BroadcastsInDim S64x512x1024 (![0, 1, 2] : Fin 3 → Fin S64x512x1024.rank)
  bcast_S64x512x1_S64x512x1024_0_1_2 : S64x512x1.BroadcastsInDim S64x512x1024 (![0, 1, 2] : Fin 3 → Fin S64x512x1024.rank)
  bcast_S_S64x512x1024 : S_.BroadcastsInDim S64x512x1024 (![] : Fin 0 → Fin S64x512x1024.rank)
  dot_S64x512x1041_S1024x1041_S64x512x1024_2_1_01_0_n_n_wf : DotDims.WF S64x512x1041 S1024x1041 S64x512x1024 [2] [1] [0, 1] [0] [] []
  dot_S64x512x55_S1024x55_S64x512x1024_2_1_01_0_n_n_wf : DotDims.WF S64x512x55 S1024x55 S64x512x1024 [2] [1] [0, 1] [0] [] []

variable [Facts₀]

def dot_S64x512x1041_S1024x1041_S64x512x1024_2_1_01_0_n_n : DotDims S64x512x1041 S1024x1041 S64x512x1024 where
  lhsContracting := [2]
  rhsContracting := [1]
  lhsNonContracting := [0, 1]
  rhsNonContracting := [0]
  lhsBatch := []
  rhsBatch := []
  wf := dot_S64x512x1041_S1024x1041_S64x512x1024_2_1_01_0_n_n_wf
def dot_S64x512x55_S1024x55_S64x512x1024_2_1_01_0_n_n : DotDims S64x512x55 S1024x55 S64x512x1024 where
  lhsContracting := [2]
  rhsContracting := [1]
  lhsNonContracting := [0, 1]
  rhsNonContracting := [0]
  lhsBatch := []
  rhsBatch := []
  wf := dot_S64x512x55_S1024x55_S64x512x1024_2_1_01_0_n_n_wf

class Facts : Prop extends Facts₀ where

variable [Facts]
-- ==== Proof.FrameBits.lean ====
/-
  The frame of `Kernel`: @main is fifteen host operations (two reshapes, a bool-to-float convert, a broadcast,
  two three-way concatenations, two transposes, four slices, two format changes, one addition) and then ONE
  pipelined region over a grid of 64 points, one point per batch row. At point `t` the body is handed the blocks
  of six input windows — the [1,512,1024] embeddings block, the [1,512,72] small-feature block and the [1,512,1]
  mask block of batch row `t`, and the whole [1024,1024] and [72,1024] weight matrices and the [1,1024] bias row,
  fetched once at the first point and kept — and stores ONE [1,512,1024] block, a pure function of those six
  (it also loads the output buffer, a value nothing reads). Hence: the arrays the region finds are the host
  operations' results (`V`); each input buffer holds its block at every point; the output buffer ends at the
  stored payload; the run terminates, faults nowhere, and the nine argument arrays end as launched.
-/
import proofs.«145159_j11089605558540_2_alg».proof.Proof.Gen.Kernel.Launch
import proofs.«145159_j11089605558540_2_alg».proof.Proof.Gen.Kernel.Skeleton
import proofs.«145159_j11089605558540_2_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Fr

open Cert.Kernel Cert.Kernel.Gen
open Cert.Kernel.Facts₀ Cert.Kernel.Facts
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main up to the region -/

/-- Core `c`'s buffers when the region is entered: the launch contents after the fifteen host operations. -/
abbrev V (c : Dev nD) (b : Ref sig .tc) : Buf (Elt F) ((c : Thread nD τ).loc b) := StableHlo.after hostOps0 (fun b => m (c, b)) b

/-- No host operation allocates. -/
theorem hostOps0_fresh : (hostOps0 : List (HloOp τ sig (Elt F))).Forall fun op => op.fresh = ∅ := by
  simp only [List.Forall]; repeat' constructor

/-- @main is the host operations, then the region. -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- Every host operation writes a fresh intermediate (`main_v0` … `main_v14`), never an argument: an argument
    array is found as launched. -/
theorem V_arg (c : Dev nD) (b : Ref sig .tc)
    (hb : b ≠ main_v0 ∧ b ≠ main_v1 ∧ b ≠ main_v2 ∧ b ≠ main_v3 ∧ b ≠ main_v4 ∧ b ≠ main_v5 ∧ b ≠ main_v6 ∧ b ≠ main_v7
      ∧ b ≠ main_v8 ∧ b ≠ main_v9 ∧ b ≠ main_v10 ∧ b ≠ main_v11 ∧ b ≠ main_v12 ∧ b ≠ main_v13 ∧ b ≠ main_v14) :
    V m c b = m ((c : Thread nD τ).loc b) := by
  obtain ⟨h0, h1, h2, h3, h4, h5, h6, h7, h8, h9, h10, h11, h12, h13, h14⟩ := hb
  refine StableHlo.after_of_forall_not_mem (b := Proc.devRef .tc b) _ _ (List.forall_iff_forall_mem.mp ?_)
  simp only [hostOps0, List.Forall, StableHlo.unary_writes, StableHlo.binary_writes, StableHlo.reshape_writes,
    StableHlo.nary_writes, Finset.mem_singleton]
  exact ⟨StableHlo.devRef_ne_of_ne h0, StableHlo.devRef_ne_of_ne h1, StableHlo.devRef_ne_of_ne h2, StableHlo.devRef_ne_of_ne h3,
    StableHlo.devRef_ne_of_ne h4, StableHlo.devRef_ne_of_ne h5, StableHlo.devRef_ne_of_ne h6, StableHlo.devRef_ne_of_ne h7,
    StableHlo.devRef_ne_of_ne h8, StableHlo.devRef_ne_of_ne h9, StableHlo.devRef_ne_of_ne h10, StableHlo.devRef_ne_of_ne h11,
    StableHlo.devRef_ne_of_ne h12, StableHlo.devRef_ne_of_ne h13, StableHlo.devRef_ne_of_ne h14⟩

theorem V_main_arg0 (c : Dev nD) : V m c main_arg0 = m ((c : Thread nD τ).loc main_arg0) := V_arg m c _ (by decide)
theorem V_main_arg1 (c : Dev nD) : V m c main_arg1 = m ((c : Thread nD τ).loc main_arg1) := V_arg m c _ (by decide)
theorem V_main_arg2 (c : Dev nD) : V m c main_arg2 = m ((c : Thread nD τ).loc main_arg2) := V_arg m c _ (by decide)
theorem V_main_arg3 (c : Dev nD) : V m c main_arg3 = m ((c : Thread nD τ).loc main_arg3) := V_arg m c _ (by decide)
theorem V_main_arg4 (c : Dev nD) : V m c main_arg4 = m ((c : Thread nD τ).loc main_arg4) := V_arg m c _ (by decide)
theorem V_main_arg5 (c : Dev nD) : V m c main_arg5 = m ((c : Thread nD τ).loc main_arg5) := V_arg m c _ (by decide)
theorem V_main_arg6 (c : Dev nD) : V m c main_arg6 = m ((c : Thread nD τ).loc main_arg6) := V_arg m c _ (by decide)
theorem V_main_arg7 (c : Dev nD) : V m c main_arg7 = m ((c : Thread nD τ).loc main_arg7) := V_arg m c _ (by decide)
theorem V_main_arg8 (c : Dev nD) : V m c main_arg8 = m ((c : Thread nD τ).loc main_arg8) := V_arg m c _ (by decide)

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- An input window's current staging buffer holds its block at every point, fetched there or not (unfetched, the
    block index has not moved), for any proof data over `V` whose body leaves the block in place; window by window. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
theorem before0_5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- From a run to the library's frame post over `V`: the staged argument (`main_arg0`, window 0's array) by the
    library's reading of an input array, the eight arguments no window stages by the post's second clause. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun _ h c => ⟨((h c).1 0).trans (((dats 0 c).arrAt_in 0 rfl _).trans ((hA c 0).trans (V_main_arg0 m c))),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).2 main_arg6 (Pipeline.mem_restRefs_of main_arg6 (by decide) (by decide))).trans (V_main_arg6 m c),
      ((h c).2 main_arg7 (Pipeline.mem_restRefs_of main_arg7 (by decide) (by decide))).trans (V_main_arg7 m c),
      ((h c).2 main_arg8 (Pipeline.mem_restRefs_of main_arg8 (by decide) (by decide))).trans (V_main_arg8 m c)⟩) h

end Cert.Kernel.Fr

end
-- ==== Proof.BodyBits.lean ====
/-
  The body of `Kernel`'s one region, and the run. At every grid point the body loads the six input blocks whole,
  computes one [1,512,1024] value from them (two matrix products into zero accumulators, their sum, the bias row
  spread over the 512 rows, the mask column spread over the 1024 lanes as a factor) and stores it over the whole
  output block; the load of the output buffer feeds nothing. So the output buffer ends every point at that value of
  the point's input blocks, whatever it held before, and the inputs' buffers are left as found.
-/
import proofs.«145159_j11089605558540_2_alg».proof.Proof.FrameBits

set_option maxRecDepth 16384

noncomputable section

namespace Cert.Kernel.Fr

open Cert.Kernel Cert.Kernel.Gen
open Cert.Kernel.Facts₀ Cert.Kernel.Facts
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The body's accesses: every buffer whole -/

abbrev rEmb : Rect S1x512x1024 := Rect.unit (s := S1x512x1024) ![0, 0, 0] S1x512x1024.size Facts₀.inb_S1x512x1024_S1x512x1024_0_0_0
abbrev rSmall : Rect S1x512x72 := Rect.unit (s := S1x512x72) ![0, 0, 0] S1x512x72.size Facts₀.inb_S1x512x72_S1x512x72_0_0_0
abbrev rMask : Rect S1x512x1 := Rect.unit (s := S1x512x1) ![0, 0, 0] S1x512x1.size Facts₀.inb_S1x512x1_S1x512x1_0_0_0
abbrev rWe : Rect S1024x1024 := Rect.unit (s := S1024x1024) ![0, 0] S1024x1024.size Facts₀.inb_S1024x1024_S1024x1024_0_0
abbrev rWs : Rect S72x1024 := Rect.unit (s := S72x1024) ![0, 0] S72x1024.size Facts₀.inb_S72x1024_S72x1024_0_0
abbrev rBias : Rect S1x1024 := Rect.unit (s := S1x1024) ![0, 0] S1x1024.size Facts₀.inb_S1x1024_S1x1024_0_0

/-! ## What the body leaves in the output window's buffer -/

/-- The output buffer after the body, from the six input blocks: its one store, over the whole block. -/
def out0_6 (x0 : Vec F S1x512x1024 .f32) (x1 : Vec F S1x512x72 .f32) (x2 : Vec F S1x512x1 .f32) (x3 : Vec F S1024x1024 .bf16)
    (x4 : Vec F S72x1024 .bf16) (x5 : Vec F S1x1024 .f32) : Vec F S1x512x1024 .f32 :=
  View.canon [⟨rEmb, k0_pay1 (View.ld x0 rEmb) (View.ld x1 rSmall) (View.ld x2 rMask) (View.ld x3 rWe) (View.ld x4 rWs) (View.ld x5 rBias)⟩]

/-- The one store's rectangle is the whole block. -/
theorem cover0_6 (p0 : Vec F S1x512x1024 .f32) (y : S1x512x1024.Idx) :
    ∃ pc ∈ ([⟨rEmb, p0⟩] : List (View.Piece (Elt F) S1x512x1024 .f32)), y ∈ pc.1.set :=
  View.cover_of_tiled [⟨rEmb, p0⟩] S1x512x1024.size (by rfl) y

/-! ## The body's triple -/

set_option maxHeartbeats 1000000 in
/-- The body on whole staging memrefs, the six inputs' at contents `x0 … x5` and the output's at anything, runs to
    the continuation holding the inputs' as they were and the output's at `out0_6` of them. -/
theorem sound_kernel (c : Dev nD) (E : Set ℕ) (i : grid0.Coords)
    (arg1 : Memref sig .tc .vmem S1x512x1024 .f32) (harg1 : arg1.IsWhole) (arg2 : Memref sig .tc .vmem S1x512x72 .f32) (harg2 : arg2.IsWhole)
    (arg3 : Memref sig .tc .vmem S1x512x1 .f32) (harg3 : arg3.IsWhole) (arg4 : Memref sig .tc .vmem S1024x1024 .bf16) (harg4 : arg4.IsWhole)
    (arg5 : Memref sig .tc .vmem S72x1024 .bf16) (harg5 : arg5.IsWhole) (arg6 : Memref sig .tc .vmem S1x1024 .f32) (harg6 : arg6.IsWhole)
    (arg7 : Memref sig .tc .vmem S1x512x1024 .f32) (harg7 : arg7.IsWhole)
    (x0 : Vec F S1x512x1024 .f32) (x1 : Vec F S1x512x72 .f32) (x2 : Vec F S1x512x1 .f32) (x3 : Vec F S1024x1024 .bf16)
    (x4 : Vec F S72x1024 .bf16) (x5 : Vec F S1x1024 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ (∃ d, owns (c : Thread nD τ) arg7 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ owns (c : Thread nD τ) arg6 fullShare x5
            ∗ owns (c : Thread nD τ) arg7 fullShare (out0_6 x0 x1 x2 x3 x4 x5)) -∗ K ⟨⟩))
      ⊢ wp frame (wpE (defs₀ (F := F)) Variants.none c none) E (cc0__kernel i arg1 harg1 arg2 harg2 arg3 harg3 arg4 harg4 arg5 harg5 arg6 harg6 arg7 harg7) K := by
  simp only [cc0__kernel_eq_skeleton]; unfold cc0__kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (cover0_6 _)

/-! ## The pipeline's proof data -/

/-- The proof data of the pipeline on core `c`: the arrays as the region finds them; after the body at point `t`
    each input's buffer at its block and the output's at `out0_6` of the six input blocks; the invariant the scoped
    rest and the generator register, untouched; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => out0_6 (iblk m c 0 t) (iblk m c 1 t) (iblk m c 2 t) (iblk m c 3 t) (iblk m c 4 t) (iblk m c 5 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t
    = out0_6 (iblk m c 0 t) (iblk m c 1 t) (iblk m c 2 t) (iblk m c 3 t) (iblk m c 4 t) (iblk m c 5 t) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d

/-! ## The body obligation, at a generic point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t))

/-- The body at any point: the inputs' buffers hold their blocks, so `sound_kernel` applies; the invariant and the
    core's owed signals pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel c Set.univ (grid0.coords t) _ _ _ _ _ _ _ _ _ _ _ _ _ _ (iblk m c 0 t) (iblk m c 1 t) (iblk m c 2 t) (iblk m c 3 t) (iblk m c 4 t) (iblk m c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The library's body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- From any memory with zero counters every weakly fair execution of @main terminates, and every final state has
    every array of the pipeline at what the library computes from the proof data and every other unscoped buffer as
    the region found it. -/
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The frame: the run terminates, faults nowhere, and the nine argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  frame_of m ρ (dats m) (A_eq m) (run_main m ρ)

end Cert.Kernel.Fr

end
-- ==== Proof.FrameIdeal.lean ====
/-
  The frame of `KernelIdeal`: @main is fifteen host operations (two reshapes, a bool-to-float convert, a broadcast,
  two three-way concatenations, two transposes, four slices, two format changes, one addition) and then ONE
  pipelined region over a grid of 64 points, one point per batch row. At point `t` the body is handed the blocks
  of six input windows — the [1,512,1024] embeddings block, the [1,512,72] small-feature block and the [1,512,1]
  mask block of batch row `t`, and the whole [1024,1024] and [72,1024] weight matrices and the [1,1024] bias row,
  fetched once at the first point and kept — and stores ONE [1,512,1024] block, a pure function of those six
  (it also loads the output buffer, a value nothing reads). Hence: the arrays the region finds are the host
  operations' results (`V`); each input buffer holds its block at every point; the output buffer ends at the
  stored payload; the run terminates, faults nowhere, and the nine argument arrays end as launched.
-/
import proofs.«145159_j11089605558540_2_alg».proof.Proof.Gen.KernelIdeal.Launch
import proofs.«145159_j11089605558540_2_alg».proof.Proof.Gen.KernelIdeal.Skeleton
import proofs.«145159_j11089605558540_2_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Fr

open Cert.KernelIdeal Cert.KernelIdeal.Gen
open Cert.KernelIdeal.Facts₀ Cert.KernelIdeal.Facts
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main up to the region -/

/-- Core `c`'s buffers when the region is entered: the launch contents after the fifteen host operations. -/
abbrev V (c : Dev nD) (b : Ref sig .tc) : Buf (Elt F) ((c : Thread nD τ).loc b) := StableHlo.after hostOps0 (fun b => m (c, b)) b

/-- No host operation allocates. -/
theorem hostOps0_fresh : (hostOps0 : List (HloOp τ sig (Elt F))).Forall fun op => op.fresh = ∅ := by
  simp only [List.Forall]; repeat' constructor

/-- @main is the host operations, then the region. -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- Every host operation writes a fresh intermediate (`main_v0` … `main_v14`), never an argument: an argument
    array is found as launched. -/
theorem V_arg (c : Dev nD) (b : Ref sig .tc)
    (hb : b ≠ main_v0 ∧ b ≠ main_v1 ∧ b ≠ main_v2 ∧ b ≠ main_v3 ∧ b ≠ main_v4 ∧ b ≠ main_v5 ∧ b ≠ main_v6 ∧ b ≠ main_v7
      ∧ b ≠ main_v8 ∧ b ≠ main_v9 ∧ b ≠ main_v10 ∧ b ≠ main_v11 ∧ b ≠ main_v12 ∧ b ≠ main_v13 ∧ b ≠ main_v14) :
    V m c b = m ((c : Thread nD τ).loc b) := by
  obtain ⟨h0, h1, h2, h3, h4, h5, h6, h7, h8, h9, h10, h11, h12, h13, h14⟩ := hb
  refine StableHlo.after_of_forall_not_mem (b := Proc.devRef .tc b) _ _ (List.forall_iff_forall_mem.mp ?_)
  simp only [hostOps0, List.Forall, StableHlo.unary_writes, StableHlo.binary_writes, StableHlo.reshape_writes,
    StableHlo.nary_writes, Finset.mem_singleton]
  exact ⟨StableHlo.devRef_ne_of_ne h0, StableHlo.devRef_ne_of_ne h1, StableHlo.devRef_ne_of_ne h2, StableHlo.devRef_ne_of_ne h3,
    StableHlo.devRef_ne_of_ne h4, StableHlo.devRef_ne_of_ne h5, StableHlo.devRef_ne_of_ne h6, StableHlo.devRef_ne_of_ne h7,
    StableHlo.devRef_ne_of_ne h8, StableHlo.devRef_ne_of_ne h9, StableHlo.devRef_ne_of_ne h10, StableHlo.devRef_ne_of_ne h11,
    StableHlo.devRef_ne_of_ne h12, StableHlo.devRef_ne_of_ne h13, StableHlo.devRef_ne_of_ne h14⟩

theorem V_main_arg0 (c : Dev nD) : V m c main_arg0 = m ((c : Thread nD τ).loc main_arg0) := V_arg m c _ (by decide)
theorem V_main_arg1 (c : Dev nD) : V m c main_arg1 = m ((c : Thread nD τ).loc main_arg1) := V_arg m c _ (by decide)
theorem V_main_arg2 (c : Dev nD) : V m c main_arg2 = m ((c : Thread nD τ).loc main_arg2) := V_arg m c _ (by decide)
theorem V_main_arg3 (c : Dev nD) : V m c main_arg3 = m ((c : Thread nD τ).loc main_arg3) := V_arg m c _ (by decide)
theorem V_main_arg4 (c : Dev nD) : V m c main_arg4 = m ((c : Thread nD τ).loc main_arg4) := V_arg m c _ (by decide)
theorem V_main_arg5 (c : Dev nD) : V m c main_arg5 = m ((c : Thread nD τ).loc main_arg5) := V_arg m c _ (by decide)
theorem V_main_arg6 (c : Dev nD) : V m c main_arg6 = m ((c : Thread nD τ).loc main_arg6) := V_arg m c _ (by decide)
theorem V_main_arg7 (c : Dev nD) : V m c main_arg7 = m ((c : Thread nD τ).loc main_arg7) := V_arg m c _ (by decide)
theorem V_main_arg8 (c : Dev nD) : V m c main_arg8 = m ((c : Thread nD τ).loc main_arg8) := V_arg m c _ (by decide)

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- An input window's current staging buffer holds its block at every point, fetched there or not (unfetched, the
    block index has not moved), for any proof data over `V` whose body leaves the block in place; window by window. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
theorem before0_5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- From a run to the library's frame post over `V`: the staged argument (`main_arg0`, window 0's array) by the
    library's reading of an input array, the eight arguments no window stages by the post's second clause. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun _ h c => ⟨((h c).1 0).trans (((dats 0 c).arrAt_in 0 rfl _).trans ((hA c 0).trans (V_main_arg0 m c))),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).2 main_arg6 (Pipeline.mem_restRefs_of main_arg6 (by decide) (by decide))).trans (V_main_arg6 m c),
      ((h c).2 main_arg7 (Pipeline.mem_restRefs_of main_arg7 (by decide) (by decide))).trans (V_main_arg7 m c),
      ((h c).2 main_arg8 (Pipeline.mem_restRefs_of main_arg8 (by decide) (by decide))).trans (V_main_arg8 m c)⟩) h

end Cert.KernelIdeal.Fr

end
-- ==== Proof.BodyIdeal.lean ====
/-
  The body of `KernelIdeal`'s one region, and the run. At every grid point the body loads the six input blocks whole,
  computes one [1,512,1024] value from them (two matrix products into zero accumulators, their sum, the bias row
  spread over the 512 rows, the mask column spread over the 1024 lanes as a factor) and stores it over the whole
  output block; the load of the output buffer feeds nothing. So the output buffer ends every point at that value of
  the point's input blocks, whatever it held before, and the inputs' buffers are left as found.
-/
import proofs.«145159_j11089605558540_2_alg».proof.Proof.FrameIdeal

set_option maxRecDepth 16384

noncomputable section

namespace Cert.KernelIdeal.Fr

open Cert.KernelIdeal Cert.KernelIdeal.Gen
open Cert.KernelIdeal.Facts₀ Cert.KernelIdeal.Facts
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The body's accesses: every buffer whole -/

abbrev rEmb : Rect S1x512x1024 := Rect.unit (s := S1x512x1024) ![0, 0, 0] S1x512x1024.size Facts₀.inb_S1x512x1024_S1x512x1024_0_0_0
abbrev rSmall : Rect S1x512x72 := Rect.unit (s := S1x512x72) ![0, 0, 0] S1x512x72.size Facts₀.inb_S1x512x72_S1x512x72_0_0_0
abbrev rMask : Rect S1x512x1 := Rect.unit (s := S1x512x1) ![0, 0, 0] S1x512x1.size Facts₀.inb_S1x512x1_S1x512x1_0_0_0
abbrev rWe : Rect S1024x1024 := Rect.unit (s := S1024x1024) ![0, 0] S1024x1024.size Facts₀.inb_S1024x1024_S1024x1024_0_0
abbrev rWs : Rect S72x1024 := Rect.unit (s := S72x1024) ![0, 0] S72x1024.size Facts₀.inb_S72x1024_S72x1024_0_0
abbrev rBias : Rect S1x1024 := Rect.unit (s := S1x1024) ![0, 0] S1x1024.size Facts₀.inb_S1x1024_S1x1024_0_0

/-! ## What the body leaves in the output window's buffer -/

/-- The output buffer after the body, from the six input blocks: its one store, over the whole block. -/
def out0_6 (x0 : Vec F S1x512x1024 .f32) (x1 : Vec F S1x512x72 .f32) (x2 : Vec F S1x512x1 .f32) (x3 : Vec F S1024x1024 .bf16)
    (x4 : Vec F S72x1024 .bf16) (x5 : Vec F S1x1024 .f32) : Vec F S1x512x1024 .f32 :=
  View.canon [⟨rEmb, k0_pay1 (View.ld x0 rEmb) (View.ld x1 rSmall) (View.ld x2 rMask) (View.ld x3 rWe) (View.ld x4 rWs) (View.ld x5 rBias)⟩]

/-- The one store's rectangle is the whole block. -/
theorem cover0_6 (p0 : Vec F S1x512x1024 .f32) (y : S1x512x1024.Idx) :
    ∃ pc ∈ ([⟨rEmb, p0⟩] : List (View.Piece (Elt F) S1x512x1024 .f32)), y ∈ pc.1.set :=
  View.cover_of_tiled [⟨rEmb, p0⟩] S1x512x1024.size (by rfl) y

/-! ## The body's triple -/

set_option maxHeartbeats 1000000 in
/-- The body on whole staging memrefs, the six inputs' at contents `x0 … x5` and the output's at anything, runs to
    the continuation holding the inputs' as they were and the output's at `out0_6` of them. -/
theorem sound_kernel (c : Dev nD) (E : Set ℕ) (i : grid0.Coords)
    (arg1 : Memref sig .tc .vmem S1x512x1024 .f32) (harg1 : arg1.IsWhole) (arg2 : Memref sig .tc .vmem S1x512x72 .f32) (harg2 : arg2.IsWhole)
    (arg3 : Memref sig .tc .vmem S1x512x1 .f32) (harg3 : arg3.IsWhole) (arg4 : Memref sig .tc .vmem S1024x1024 .bf16) (harg4 : arg4.IsWhole)
    (arg5 : Memref sig .tc .vmem S72x1024 .bf16) (harg5 : arg5.IsWhole) (arg6 : Memref sig .tc .vmem S1x1024 .f32) (harg6 : arg6.IsWhole)
    (arg7 : Memref sig .tc .vmem S1x512x1024 .f32) (harg7 : arg7.IsWhole)
    (x0 : Vec F S1x512x1024 .f32) (x1 : Vec F S1x512x72 .f32) (x2 : Vec F S1x512x1 .f32) (x3 : Vec F S1024x1024 .bf16)
    (x4 : Vec F S72x1024 .bf16) (x5 : Vec F S1x1024 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ (∃ d, owns (c : Thread nD τ) arg7 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ owns (c : Thread nD τ) arg6 fullShare x5
            ∗ owns (c : Thread nD τ) arg7 fullShare (out0_6 x0 x1 x2 x3 x4 x5)) -∗ K ⟨⟩))
      ⊢ wp frame (wpE (defs₀ (F := F)) Variants.none c none) E (cc0__kernel i arg1 harg1 arg2 harg2 arg3 harg3 arg4 harg4 arg5 harg5 arg6 harg6 arg7 harg7) K := by
  simp only [cc0__kernel_eq_skeleton]; unfold cc0__kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (cover0_6 _)

/-! ## The pipeline's proof data -/

/-- The proof data of the pipeline on core `c`: the arrays as the region finds them; after the body at point `t`
    each input's buffer at its block and the output's at `out0_6` of the six input blocks; the invariant the scoped
    rest and the generator register, untouched; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => out0_6 (iblk m c 0 t) (iblk m c 1 t) (iblk m c 2 t) (iblk m c 3 t) (iblk m c 4 t) (iblk m c 5 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t
    = out0_6 (iblk m c 0 t) (iblk m c 1 t) (iblk m c 2 t) (iblk m c 3 t) (iblk m c 4 t) (iblk m c 5 t) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d

/-! ## The body obligation, at a generic point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t))

/-- The body at any point: the inputs' buffers hold their blocks, so `sound_kernel` applies; the invariant and the
    core's owed signals pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel c Set.univ (grid0.coords t) _ _ _ _ _ _ _ _ _ _ _ _ _ _ (iblk m c 0 t) (iblk m c 1 t) (iblk m c 2 t) (iblk m c 3 t) (iblk m c 4 t) (iblk m c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The library's body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- From any memory with zero counters every weakly fair execution of @main terminates, and every final state has
    every array of the pipeline at what the library computes from the proof data and every other unscoped buffer as
    the region found it. -/
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The frame: the run terminates, faults nowhere, and the nine argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  frame_of m ρ (dats m) (A_eq m) (run_main m ρ)

end Cert.KernelIdeal.Fr

end
-- ==== Proof.LibMatmul2.lean ====
/-
  A rank-2 by rank-2 matrix product with one contracted axis on each side and no batch axis, read at an entry of the
  result, at the ideal values: the sum over the contracted coordinate of the products of the operands' entries. Four
  arrangements of the contracted axes, for a product into a zero accumulator:

  * `matmul_nn_apply`: rows by columns, `out[a, b] = Σ_c A[a, c] · B[c, b]`;
  * `matmul_tn_apply`: the left operand contracted on its rows, `out[a, b] = Σ_c A[c, a] · B[c, b]`;
  * `matmul_nt_apply`: the right operand contracted on its columns, `out[a, b] = Σ_c A[a, c] · B[b, c]`;
  * `matmul_tt_apply`: both, `out[a, b] = Σ_c A[c, a] · B[b, c]`.
-/
import Idealize.ShloMosaic.PureOps.Ideal.Laws
import Idealize.ShloMosaic.Lib.ValueIdx

namespace LibMatmul2

open Idealize.ShloMosaic Idealize.ShloMosaic.ValueIdx

variable {m k n : Nat} {φ₁ φ₂ : FTy}

/-- Rows by columns. -/
theorem matmul_nn_apply
    (w : DotDims.WF ⟨2, ![m, k]⟩ ⟨2, ![k, n]⟩ ⟨2, ![m, n]⟩ [1] [0] [0] [1] [] [])
    (prec : Option ContractPrecision) (A : FVec Ideal ⟨2, ![m, k]⟩ φ₁) (B : FVec Ideal ⟨2, ![k, n]⟩ φ₂) (a : Fin m) (b : Fin n) :
    FloatOps.matmul (⟨[1], [0], [0], [1], [], [], w⟩ : DotDims _ _ _) prec A B (constant _ .f32 0x00000000#32) (ix2 a b)
      = ∑ c : Fin k, A (ix2 a c) * B (ix2 c b) := by
  rw [Ideal.matmul_constant_zero_apply,
    ← Equiv.sum_comp (contrEquiv1 (⟨[1], [0], [0], [1], [], [], w⟩ : DotDims _ _ _) k rfl rfl).symm]
  refine Finset.sum_congr rfl fun c _ => ?_
  have c2 := contrEquiv1_symm_val (⟨[1], [0], [0], [1], [], [], w⟩ : DotDims ⟨2, ![m, k]⟩ ⟨2, ![k, n]⟩ ⟨2, ![m, n]⟩) k rfl rfl c
  have l2 : (⟨[1], [0], [0], [1], [], [], w⟩ : DotDims ⟨2, ![m, k]⟩ ⟨2, ![k, n]⟩ ⟨2, ![m, n]⟩).lhsIdx (ix2 a b)
      ((contrEquiv1 _ k rfl rfl).symm c) = ix2 a c := by
    funext ax; apply Fin.ext
    match ax with
    | ⟨0, _⟩ => simp [DotDims.lhsIdx]; rfl
    | ⟨1, _⟩ => simp [DotDims.lhsIdx]; exact c2
  have r2 : (⟨[1], [0], [0], [1], [], [], w⟩ : DotDims ⟨2, ![m, k]⟩ ⟨2, ![k, n]⟩ ⟨2, ![m, n]⟩).rhsIdx (ix2 a b)
      ((contrEquiv1 _ k rfl rfl).symm c) = ix2 c b := by
    funext ax; apply Fin.ext
    match ax with
    | ⟨0, _⟩ => simp [DotDims.rhsIdx]; exact c2
    | ⟨1, _⟩ => simp [DotDims.rhsIdx]; rfl
  rw [l2, r2]

/-- The left operand contracted on its rows. -/
theorem matmul_tn_apply
    (w : DotDims.WF ⟨2, ![k, m]⟩ ⟨2, ![k, n]⟩ ⟨2, ![m, n]⟩ [0] [0] [1] [1] [] [])
    (prec : Option ContractPrecision) (A : FVec Ideal ⟨2, ![k, m]⟩ φ₁) (B : FVec Ideal ⟨2, ![k, n]⟩ φ₂) (a : Fin m) (b : Fin n) :
    FloatOps.matmul (⟨[0], [0], [1], [1], [], [], w⟩ : DotDims _ _ _) prec A B (constant _ .f32 0x00000000#32) (ix2 a b)
      = ∑ c : Fin k, A (ix2 c a) * B (ix2 c b) := by
  rw [Ideal.matmul_constant_zero_apply,
    ← Equiv.sum_comp (contrEquiv1 (⟨[0], [0], [1], [1], [], [], w⟩ : DotDims _ _ _) k rfl rfl).symm]
  refine Finset.sum_congr rfl fun c _ => ?_
  have c2 := contrEquiv1_symm_val (⟨[0], [0], [1], [1], [], [], w⟩ : DotDims ⟨2, ![k, m]⟩ ⟨2, ![k, n]⟩ ⟨2, ![m, n]⟩) k rfl rfl c
  have l2 : (⟨[0], [0], [1], [1], [], [], w⟩ : DotDims ⟨2, ![k, m]⟩ ⟨2, ![k, n]⟩ ⟨2, ![m, n]⟩).lhsIdx (ix2 a b)
      ((contrEquiv1 _ k rfl rfl).symm c) = ix2 c a := by
    funext ax; apply Fin.ext
    match ax with
    | ⟨0, _⟩ => simp [DotDims.lhsIdx]; exact c2
    | ⟨1, _⟩ => simp [DotDims.lhsIdx]; rfl
  have r2 : (⟨[0], [0], [1], [1], [], [], w⟩ : DotDims ⟨2, ![k, m]⟩ ⟨2, ![k, n]⟩ ⟨2, ![m, n]⟩).rhsIdx (ix2 a b)
      ((contrEquiv1 _ k rfl rfl).symm c) = ix2 c b := by
    funext ax; apply Fin.ext
    match ax with
    | ⟨0, _⟩ => simp [DotDims.rhsIdx]; exact c2
    | ⟨1, _⟩ => simp [DotDims.rhsIdx]; rfl
  rw [l2, r2]

/-- The right operand contracted on its columns. -/
theorem matmul_nt_apply
    (w : DotDims.WF ⟨2, ![m, k]⟩ ⟨2, ![n, k]⟩ ⟨2, ![m, n]⟩ [1] [1] [0] [0] [] [])
    (prec : Option ContractPrecision) (A : FVec Ideal ⟨2, ![m, k]⟩ φ₁) (B : FVec Ideal ⟨2, ![n, k]⟩ φ₂) (a : Fin m) (b : Fin n) :
    FloatOps.matmul (⟨[1], [1], [0], [0], [], [], w⟩ : DotDims _ _ _) prec A B (constant _ .f32 0x00000000#32) (ix2 a b)
      = ∑ c : Fin k, A (ix2 a c) * B (ix2 b c) := by
  rw [Ideal.matmul_constant_zero_apply,
    ← Equiv.sum_comp (contrEquiv1 (⟨[1], [1], [0], [0], [], [], w⟩ : DotDims _ _ _) k rfl rfl).symm]
  refine Finset.sum_congr rfl fun c _ => ?_
  have c2 := contrEquiv1_symm_val (⟨[1], [1], [0], [0], [], [], w⟩ : DotDims ⟨2, ![m, k]⟩ ⟨2, ![n, k]⟩ ⟨2, ![m, n]⟩) k rfl rfl c
  have l2 : (⟨[1], [1], [0], [0], [], [], w⟩ : DotDims ⟨2, ![m, k]⟩ ⟨2, ![n, k]⟩ ⟨2, ![m, n]⟩).lhsIdx (ix2 a b)
      ((contrEquiv1 _ k rfl rfl).symm c) = ix2 a c := by
    funext ax; apply Fin.ext
    match ax with
    | ⟨0, _⟩ => simp [DotDims.lhsIdx]; rfl
    | ⟨1, _⟩ => simp [DotDims.lhsIdx]; exact c2
  have r2 : (⟨[1], [1], [0], [0], [], [], w⟩ : DotDims ⟨2, ![m, k]⟩ ⟨2, ![n, k]⟩ ⟨2, ![m, n]⟩).rhsIdx (ix2 a b)
      ((contrEquiv1 _ k rfl rfl).symm c) = ix2 b c := by
    funext ax; apply Fin.ext
    match ax with
    | ⟨0, _⟩ => simp [DotDims.rhsIdx]; rfl
    | ⟨1, _⟩ => simp [DotDims.rhsIdx]; exact c2
  rw [l2, r2]

/-- The left operand contracted on its rows and the right one on its columns. -/
theorem matmul_tt_apply
    (w : DotDims.WF ⟨2, ![k, m]⟩ ⟨2, ![n, k]⟩ ⟨2, ![m, n]⟩ [0] [1] [1] [0] [] [])
    (prec : Option ContractPrecision) (A : FVec Ideal ⟨2, ![k, m]⟩ φ₁) (B : FVec Ideal ⟨2, ![n, k]⟩ φ₂) (a : Fin m) (b : Fin n) :
    FloatOps.matmul (⟨[0], [1], [1], [0], [], [], w⟩ : DotDims _ _ _) prec A B (constant _ .f32 0x00000000#32) (ix2 a b)
      = ∑ c : Fin k, A (ix2 c a) * B (ix2 b c) := by
  rw [Ideal.matmul_constant_zero_apply,
    ← Equiv.sum_comp (contrEquiv1 (⟨[0], [1], [1], [0], [], [], w⟩ : DotDims _ _ _) k rfl rfl).symm]
  refine Finset.sum_congr rfl fun c _ => ?_
  have c2 := contrEquiv1_symm_val (⟨[0], [1], [1], [0], [], [], w⟩ : DotDims ⟨2, ![k, m]⟩ ⟨2, ![n, k]⟩ ⟨2, ![m, n]⟩) k rfl rfl c
  have l2 : (⟨[0], [1], [1], [0], [], [], w⟩ : DotDims ⟨2, ![k, m]⟩ ⟨2, ![n, k]⟩ ⟨2, ![m, n]⟩).lhsIdx (ix2 a b)
      ((contrEquiv1 _ k rfl rfl).symm c) = ix2 c a := by
    funext ax; apply Fin.ext
    match ax with
    | ⟨0, _⟩ => simp [DotDims.lhsIdx]; exact c2
    | ⟨1, _⟩ => simp [DotDims.lhsIdx]; rfl
  have r2 : (⟨[0], [1], [1], [0], [], [], w⟩ : DotDims ⟨2, ![k, m]⟩ ⟨2, ![n, k]⟩ ⟨2, ![m, n]⟩).rhsIdx (ix2 a b)
      ((contrEquiv1 _ k rfl rfl).symm c) = ix2 b c := by
    funext ax; apply Fin.ext
    match ax with
    | ⟨0, _⟩ => simp [DotDims.rhsIdx]; rfl
    | ⟨1, _⟩ => simp [DotDims.rhsIdx]; exact c2
  rw [l2, r2]

end LibMatmul2
-- ==== Proof.LibUnitBlock.lean ====
/-
  A leading unit axis and unit-extent rows or columns of rank-2 arrays, read at an index written by its coordinates,
  over arbitrary extents and any element type:

  * `drop_lead_apply`: a [1,a,b] block viewed as an [a,b] matrix reads, at (p, q), the block at (0, p, q);
  * `add_lead_apply`: an [a,b] matrix viewed as a [1,a,b] block reads, at (u, p, q), the matrix at (p, q);
  * `row_spread_apply`: a [1,b] row spread over [a,b] reads, at (p, q), the row at (0, q);
  * `col_spread_apply`: an [a,1] column spread over [a,b] reads, at (p, q), the column at (p, 0).

  The two views keep the row-major position (the unit coordinate contributes nothing); a spread reads coordinate 0
  along the operand's unit axis.
-/
import Idealize.ShloMosaic.Lib.ValueIdx
import Idealize.ShloMosaic.Lib.Pipeline.Value

namespace LibUnitBlock

open Idealize.ShloMosaic Idealize.ShloMosaic.ValueIdx

variable {α : Type} {a b : ℕ}

/-- A [1,b] row spread over [a,b] reads, at (p, q), the row at (0, q). -/
theorem row_spread_apply (v : (⟨2, ![1, b]⟩ : Shape).Idx → α)
    (h : (⟨2, ![1, b]⟩ : Shape).Broadcasts ⟨2, ![a, b]⟩) (p : Fin a) (q : Fin b) :
    broadcastTo ⟨2, ![a, b]⟩ v h (ix2 p q) = v (ix2 (0 : Fin 1) q) := by
  refine broadcastTo_apply v h (ix2 p q) (ix2 (0 : Fin 1) q) fun ax => ?_
  match ax with
  | ⟨0, _⟩ => rfl
  | ⟨1, _⟩ =>
    show q.val = if b = 1 then 0 else q.val
    split
    · have := q.isLt; omega
    · rfl

/-- An [a,1] column spread over [a,b] reads, at (p, q), the column at (p, 0). -/
theorem col_spread_apply (v : (⟨2, ![a, 1]⟩ : Shape).Idx → α)
    (h : (⟨2, ![a, 1]⟩ : Shape).Broadcasts ⟨2, ![a, b]⟩) (p : Fin a) (q : Fin b) :
    broadcastTo ⟨2, ![a, b]⟩ v h (ix2 p q) = v (ix2 p (0 : Fin 1)) := by
  refine broadcastTo_apply v h (ix2 p q) (ix2 p (0 : Fin 1)) fun ax => ?_
  match ax with
  | ⟨0, _⟩ =>
    show p.val = if a = 1 then 0 else p.val
    split
    · have := p.isLt; omega
    · rfl
  | ⟨1, _⟩ => rfl

/-- A [1,a,b] block viewed as [a,b] reads, at (p, q), the block at (0, p, q). -/
theorem drop_lead_apply (v : (⟨3, ![1, a, b]⟩ : Shape).Idx → α)
    (h : (⟨3, ![1, a, b]⟩ : Shape).ShapeCasts ⟨2, ![a, b]⟩) (p : Fin a) (q : Fin b) :
    shapeCast ⟨2, ![a, b]⟩ v h (ix2 p q) = v (ix3 (0 : Fin 1) p q) :=
  shapeCast_apply v h _ _ (by
    rw [Shape.rowMajor_val_three, Shape.rowMajor_val_two]
    show (0 * a + p.val) * b + q.val = p.val * b + q.val
    rw [Nat.zero_mul, Nat.zero_add])

/-- An [a,b] matrix viewed as a [1,a,b] block reads, at (u, p, q), the matrix at (p, q). -/
theorem add_lead_apply (v : (⟨2, ![a, b]⟩ : Shape).Idx → α)
    (h : (⟨2, ![a, b]⟩ : Shape).ShapeCasts ⟨3, ![1, a, b]⟩) (u : Fin 1) (p : Fin a) (q : Fin b) :
    shapeCast ⟨3, ![1, a, b]⟩ v h (ix3 u p q) = v (ix2 p q) :=
  shapeCast_apply v h _ _ (by
    have hu : u.val = 0 := by omega
    rw [Shape.rowMajor_val_three, Shape.rowMajor_val_two]
    show p.val * b + q.val = (u.val * a + p.val) * b + q.val
    rw [hu, Nat.zero_mul, Nat.zero_add])

end LibUnitBlock
-- ==== Proof.StoredBlock.lean ====
/-
  What the body stores, read at an entry, at the ideal values. With the six loaded blocks `x0` (embeddings,
  [1,512,1024]), `x1` (small features, [1,512,72]), `x2` (mask column, [1,512,1]), `x3` ([1024,1024] weights),
  `x4` ([72,1024] weights) and `x5` (bias row, [1,1024]), the stored block at (0, n, t) is

      ( Σ_e x0[0,n,e]·x3[e,t]  +  Σ_j x1[0,n,j]·x4[j,t]  +  x5[0,t] ) · x2[0,n,0] :

  the format changes are the identity, each matrix product into a zero accumulator is the plain sum over its
  contracted coordinate, the bias row is spread over the rows and the mask column over the lanes.
-/
import proofs.«145159_j11089605558540_2_alg».proof.Proof.Gen.KernelIdeal.Skeleton
import proofs.«145159_j11089605558540_2_alg».proof.Proof.LibMatmul2
import proofs.«145159_j11089605558540_2_alg».proof.Proof.LibUnitBlock
import Idealize.ShloMosaic.Lib.ValueIdx
import Idealize.ShloMosaic.Lib.Pipeline.Value
import Idealize.ShloMosaic.Lib.ValueLayout
import Idealize.ShloMosaic.PureOps.Ideal.Laws

set_option maxRecDepth 16384

noncomputable section

namespace Cert.KernelIdeal.Val

open Cert.KernelIdeal Cert.KernelIdeal.Gen
open Idealize.ShloMosaic Idealize.ShloMosaic.ValueIdx LibUnitBlock

variable (x0 : Vec Ideal S1x512x1024 .f32) (x1 : Vec Ideal S1x512x72 .f32) (x2 : Vec Ideal S1x512x1 .f32)
  (x3 : Vec Ideal S1024x1024 .bf16) (x4 : Vec Ideal S72x1024 .bf16) (x5 : Vec Ideal S1x1024 .f32)

/-- The embeddings' product at (n, t): the sum over the 1024 embedding coordinates. -/
theorem emb_prod_apply (n : Fin 512) (t : Fin 1024) :
    matmul (F := Ideal) dot_S512x1024_S1024x1024_S512x1024_1_0_0_1_n_n none
        (truncf .bf16 (shapeCast S512x1024 x0 Facts₀.shapeCasts_S1x512x1024_S512x1024 : FVec Ideal S512x1024 .f32) Facts₀.bitsLt_bf16_f32)
        (shapeCast S1024x1024 x3 Facts₀.shapeCasts_S1024x1024_S1024x1024 : FVec Ideal S1024x1024 .bf16) (constant S512x1024 .f32 0x00000000#32) (ix2 n t)
      = ∑ e : Fin 1024, x0 (ix3 (0 : Fin 1) n e) * x3 (ix2 e t) := by
  refine (LibMatmul2.matmul_nn_apply Facts₀.dot_S512x1024_S1024x1024_S512x1024_1_0_0_1_n_n_wf none _ _ n t).trans ?_
  refine Finset.sum_congr rfl fun e _ => ?_
  refine congrArg₂ (· * ·) ?_ ?_
  · exact drop_lead_apply x0 Facts₀.shapeCasts_S1x512x1024_S512x1024 n e
  · exact congrFun (shapeCast_self x3 Facts₀.shapeCasts_S1024x1024_S1024x1024) (ix2 e t)

/-- The small features' product at (n, t): the sum over the 72 small-feature coordinates. -/
theorem small_prod_apply (n : Fin 512) (t : Fin 1024) :
    matmul (F := Ideal) dot_S512x72_S72x1024_S512x1024_1_0_0_1_n_n none
        (truncf .bf16 (shapeCast S512x72 x1 Facts₀.shapeCasts_S1x512x72_S512x72 : FVec Ideal S512x72 .f32) Facts₀.bitsLt_bf16_f32)
        (shapeCast S72x1024 x4 Facts₀.shapeCasts_S72x1024_S72x1024 : FVec Ideal S72x1024 .bf16) (constant S512x1024 .f32 0x00000000#32) (ix2 n t)
      = ∑ j : Fin 72, x1 (ix3 (0 : Fin 1) n j) * x4 (ix2 j t) := by
  refine (LibMatmul2.matmul_nn_apply Facts₀.dot_S512x72_S72x1024_S512x1024_1_0_0_1_n_n_wf none _ _ n t).trans ?_
  refine Finset.sum_congr rfl fun j _ => ?_
  refine congrArg₂ (· * ·) ?_ ?_
  · exact drop_lead_apply x1 Facts₀.shapeCasts_S1x512x72_S512x72 n j
  · exact congrFun (shapeCast_self x4 Facts₀.shapeCasts_S72x1024_S72x1024) (ix2 j t)

/-- The stored block at (u, n, t). -/
theorem pay_apply (u : Fin 1) (n : Fin 512) (t : Fin 1024) :
    k0_pay1 (F := Ideal) x0 x1 x2 x3 x4 x5 (ix3 u n t)
      = ((∑ e : Fin 1024, x0 (ix3 (0 : Fin 1) n e) * x3 (ix2 e t)) + (∑ j : Fin 72, x1 (ix3 (0 : Fin 1) n j) * x4 (ix2 j t))
          + x5 (ix2 (0 : Fin 1) t)) * x2 (ix3 (0 : Fin 1) n (0 : Fin 1)) := by
  unfold k0_pay1
  refine (add_lead_apply _ Facts₀.shapeCasts_S512x1024_S1x512x1024 u n t).trans ?_
  refine congrArg₂ (· * ·) (congrArg₂ (· + ·) (congrArg₂ (· + ·) ?_ ?_) ?_) ?_
  · exact emb_prod_apply x0 x3 n t
  · exact small_prod_apply x1 x4 n t
  · refine (row_spread_apply _ Facts₀.broadcasts_S1x1024_S512x1024 n t).trans ?_
    exact congrFun (shapeCast_self x5 Facts₀.shapeCasts_S1x1024_S1x1024) (ix2 (0 : Fin 1) t)
  · refine (col_spread_apply _ Facts₀.broadcasts_S512x1_S512x1024 n t).trans ?_
    exact drop_lead_apply x2 Facts₀.shapeCasts_S1x512x1_S512x1 n (0 : Fin 1)

end Cert.KernelIdeal.Val

end
-- ==== Proof.TokenSpec.lean ====
/-
  The function both programs compute, over the extended reals. For batch row b, detection n and token t, with
  E = embeddings, V = visibility scores, B = boxes, K = the keypoints flattened to 51 numbers per detection,
  W = the appearance weights [1024, 1024+17], U = the spatio-temporal weights [1024, 4+51], p and q the two bias
  vectors and k the mask bit:

      out[b,n,t] = ( Σ_e E[b,n,e]·W[t,e] + ( Σ_j V[b,n,j]·W[t,1024+j] + ( Σ_j B[b,n,j]·U[t,j] + Σ_j K[b,n,j]·U[t,4+j] ) )
                     + (p[t] + q[t]) ) · k[b,n]          (k read as the number 0 or 1).

  The kernel computes it in this grouping; the reference adds two masked halves, `(ΣE·W + ΣV·W + p)` and
  `(ΣB·U + ΣK·U + q)`, each kept where k = 1 and replaced by 0 where k = 0. With k = 1 the two are one sum
  regrouped (addition of extended reals is commutative and associative); with k = 0 both are 0, since any extended
  real times 0 is 0. No finiteness is used.
-/
import Idealize.ShloMosaic.Lib.ValueIdx
import Idealize.ShloMosaic.PureOps.Ideal.Laws

noncomputable section

namespace Cert.TokenSpec

open Idealize.ShloMosaic Idealize.ShloMosaic.ValueIdx

/-- Column e of the appearance weights' row t: the embeddings' part. -/
abbrev wE (t : Fin 1024) (e : Fin 1024) : (⟨2, ![1024, 1041]⟩ : Shape).Idx := ix2 t ⟨e.val, by have := e.isLt; omega⟩
/-- Column 1024 + j of the appearance weights' row t: the visibility part. -/
abbrev wV (t : Fin 1024) (j : Fin 17) : (⟨2, ![1024, 1041]⟩ : Shape).Idx := ix2 t ⟨1024 + j.val, by have := j.isLt; omega⟩
/-- Column j of the spatio-temporal weights' row t: the box part. -/
abbrev wB (t : Fin 1024) (j : Fin 4) : (⟨2, ![1024, 55]⟩ : Shape).Idx := ix2 t ⟨j.val, by have := j.isLt; omega⟩
/-- Column 4 + j of the spatio-temporal weights' row t: the keypoint part. -/
abbrev wK (t : Fin 1024) (j : Fin 51) : (⟨2, ![1024, 55]⟩ : Shape).Idx := ix2 t ⟨4 + j.val, by have := j.isLt; omega⟩

/-- The four partial products at (b, n, t). -/
def sE (E : (⟨3, ![64, 512, 1024]⟩ : Shape).Idx → EReal) (W : (⟨2, ![1024, 1041]⟩ : Shape).Idx → EReal) (b : Fin 64) (n : Fin 512) (t : Fin 1024) : EReal :=
  ∑ e : Fin 1024, E (ix3 b n e) * W (wE t e)
def sV (V : (⟨3, ![64, 512, 17]⟩ : Shape).Idx → EReal) (W : (⟨2, ![1024, 1041]⟩ : Shape).Idx → EReal) (b : Fin 64) (n : Fin 512) (t : Fin 1024) : EReal :=
  ∑ j : Fin 17, V (ix3 b n j) * W (wV t j)
def sB (B : (⟨3, ![64, 512, 4]⟩ : Shape).Idx → EReal) (U : (⟨2, ![1024, 55]⟩ : Shape).Idx → EReal) (b : Fin 64) (n : Fin 512) (t : Fin 1024) : EReal :=
  ∑ j : Fin 4, B (ix3 b n j) * U (wB t j)
def sK (K : (⟨3, ![64, 512, 51]⟩ : Shape).Idx → EReal) (U : (⟨2, ![1024, 55]⟩ : Shape).Idx → EReal) (b : Fin 64) (n : Fin 512) (t : Fin 1024) : EReal :=
  ∑ j : Fin 51, K (ix3 b n j) * U (wK t j)

/-- The tokens, in the kernel's grouping. -/
def G (E : (⟨3, ![64, 512, 1024]⟩ : Shape).Idx → EReal) (V : (⟨3, ![64, 512, 17]⟩ : Shape).Idx → EReal)
    (B : (⟨3, ![64, 512, 4]⟩ : Shape).Idx → EReal) (K : (⟨3, ![64, 512, 51]⟩ : Shape).Idx → EReal)
    (k : (⟨2, ![64, 512]⟩ : Shape).Idx → BitVec 1) (W : (⟨2, ![1024, 1041]⟩ : Shape).Idx → EReal)
    (p : (⟨1, ![1024]⟩ : Shape).Idx → EReal) (U : (⟨2, ![1024, 55]⟩ : Shape).Idx → EReal) (q : (⟨1, ![1024]⟩ : Shape).Idx → EReal) :
    (⟨3, ![64, 512, 1024]⟩ : Shape).Idx → EReal := fun i =>
  (sE E W (i 0) (i 1) (i 2) + (sV V W (i 0) (i 1) (i 2) + (sB B U (i 0) (i 1) (i 2) + sK K U (i 0) (i 1) (i 2)))
      + (p (ix1 (i 2)) + q (ix1 (i 2)))) * (((k (ix2 (i 0) (i 1))).toNat : ℝ) : EReal)

/-- The law joining the two groupings: the masked sum of the two halves is the whole times the mask bit read as
    a number. -/
theorem masked_halves (a v b c p q : EReal) (k : BitVec 1) :
    Scalar.select k (a + v + p) 0 + Scalar.select k (b + c + q) 0
      = (a + (v + (b + c)) + (p + q)) * (((k.toNat : ℝ)) : EReal) := by
  by_cases hk : k = 1#1
  · subst hk
    rw [select_one, select_one]
    have h1 : (((1#1 : BitVec 1).toNat : ℝ) : EReal) = 1 := by norm_num
    rw [h1, mul_one]
    abel
  · have h0 : k = 0#1 := eq_zero_of_ne_one hk
    subst h0
    rw [select_zero, select_zero]
    have h2 : (((0#1 : BitVec 1).toNat : ℝ) : EReal) = 0 := by norm_num
    rw [h2, mul_zero, add_zero]

end Cert.TokenSpec

end
-- ==== Proof.RegionArrays.lean ====
/-
  The arrays the region finds, read at an entry, at the ideal values, as entries of the argument arrays:
  the small features [64,512,72] are visibility (17), box (4) and flattened keypoints (51) side by side; the mask
  column is the mask bit read as 0 or 1; the [1024,1024] weights are the first 1024 columns of the appearance
  weights, transposed; the [72,1024] weights stack, transposed, the appearance weights' last 17 columns, the
  spatio-temporal weights' first 4 columns and their last 51; the bias row is the sum of the two bias vectors.
-/
import proofs.«145159_j11089605558540_2_alg».proof.Proof.FrameIdeal
import proofs.«145159_j11089605558540_2_alg».proof.Proof.TokenSpec
import Idealize.ShloMosaic.Lib.StableHlo.Run
import Idealize.ShloMosaic.Lib.ValueIdx
import Idealize.ShloMosaic.Lib.Pipeline.Value
import Idealize.ShloMosaic.Lib.ValueLayout

set_option maxRecDepth 16384

noncomputable section

namespace Cert.KernelIdeal.Val

open Cert.KernelIdeal Cert.KernelIdeal.Gen Cert.TokenSpec
open Idealize.ShloMosaic Idealize.ShloMosaic.TcCoe Idealize.SL.Sem Idealize.ShloMosaic.StableHlo Idealize.ShloMosaic.ValueIdx

variable (m : (ℓ : Loc nD τ sig) → Buf (Elt Ideal) ℓ) (c : Dev nD)

/-! ## The argument arrays, as functions of an index -/

abbrev aE : S64x512x1024.Idx → EReal := m ((c : Thread nD τ).loc main_arg0)
abbrev aV : S64x512x17.Idx → EReal := m ((c : Thread nD τ).loc main_arg1)
abbrev aB : S64x512x4.Idx → EReal := m ((c : Thread nD τ).loc main_arg2)
abbrev aK4 : S64x512x17x3.Idx → EReal := m ((c : Thread nD τ).loc main_arg3)
/-- The keypoints, each detection's 17 × 3 numbers in one row of 51. -/
abbrev aK : S64x512x51.Idx → EReal := shapeCast S64x512x51 (aK4 m c) Facts₀.shapeCasts_S64x512x17x3_S64x512x51
abbrev ak : S64x512.Idx → BitVec 1 := m ((c : Thread nD τ).loc main_arg4)
abbrev aW : S1024x1041.Idx → EReal := m ((c : Thread nD τ).loc main_arg5)
abbrev ap : S1024.Idx → EReal := m ((c : Thread nD τ).loc main_arg6)
abbrev aU : S1024x55.Idx → EReal := m ((c : Thread nD τ).loc main_arg7)
abbrev aq : S1024.Idx → EReal := m ((c : Thread nD τ).loc main_arg8)

/-- The three pieces of the small features, side by side along the last axis. -/
abbrev smallPieces : List ((s : Shape) × (s.Idx → EReal)) := [⟨S64x512x17, aV m c⟩, ⟨S64x512x4, aB m c⟩, ⟨S64x512x51, aK m c⟩]
/-- The three pieces of the [72,1024] weights, stacked along the rows. -/
abbrev wsPieces : List ((s : Shape) × (s.Idx → EReal)) :=
  [⟨S17x1024, extractStridedSlice S17x1024 ![1024, 0] (transpose S1041x1024 [1, 0] (aW m c) Facts₀.transposes_S1024x1041_S1041x1024_1_0) Facts₀.slices_S1041x1024_S17x1024_1024_0⟩,
   ⟨S4x1024, extractStridedSlice S4x1024 ![0, 0] (transpose S55x1024 [1, 0] (aU m c) Facts₀.transposes_S1024x55_S55x1024_1_0) Facts₀.slices_S55x1024_S4x1024_0_0⟩,
   ⟨S51x1024, extractStridedSlice S51x1024 ![4, 0] (transpose S55x1024 [1, 0] (aU m c) Facts₀.transposes_S1024x55_S55x1024_1_0) Facts₀.slices_S55x1024_S51x1024_4_0⟩]

/-! ## The arrays as the host operations leave them -/

theorem V_small : @Eq (S64x512x72.Idx → EReal) (Fr.V m c main_v3)
    (concatenate S64x512x72 2 (smallPieces m c)
      Facts₀.concatenates_S64x512x17_S64x512x4_S64x512x51_S64x512x72_d2) := by
  dsimp only [Fr.V, hostOps0]; after_results <;> rfl

theorem V_mask : @Eq (S64x512x1.Idx → EReal) (Fr.V m c main_v2)
    (broadcastInDim S64x512x1 ![0, 1] Facts₀.bcast_S64x512_S64x512x1_0_1 (uitofp (F := Ideal) .f32 (ak m c) : S64x512.Idx → EReal)) := by
  dsimp only [Fr.V, hostOps0]; after_results <;> rfl

theorem V_We : @Eq (S1024x1024.Idx → EReal) (Fr.V m c main_v6)
    (truncf (F := Ideal) (φ := .f32) .bf16 (extractStridedSlice S1024x1024 ![0, 0]
      (transpose S1041x1024 [1, 0] (aW m c) Facts₀.transposes_S1024x1041_S1041x1024_1_0) Facts₀.slices_S1041x1024_S1024x1024_0_0) Facts₀.bitsLt_bf16_f32) := by
  dsimp only [Fr.V, hostOps0]; after_results <;> rfl

theorem V_Ws : @Eq (S72x1024.Idx → EReal) (Fr.V m c main_v12)
    (truncf (F := Ideal) (φ := .f32) .bf16 (concatenate S72x1024 0 (wsPieces m c)
      Facts₀.concatenates_S17x1024_S4x1024_S51x1024_S72x1024_d0) Facts₀.bitsLt_bf16_f32) := by
  dsimp only [Fr.V, hostOps0]; after_results <;> rfl

theorem V_bias : @Eq (S1x1024.Idx → EReal) (Fr.V m c main_v14)
    (shapeCast S1x1024 (addf (F := Ideal) (φ := .f32) (ap m c) (aq m c)) Facts₀.shapeCasts_S1024_S1x1024) := by
  dsimp only [Fr.V, hostOps0]; after_results <;> rfl

/-! ## Read at an entry -/

/-- Small feature q < 17 of detection (b, n) is its visibility score q. -/
theorem small_vis (b : Fin 64) (n : Fin 512) (q : Fin 72) (j : Fin 17) (hq : q.val = j.val) :
    (Fr.V m c main_v3 : S64x512x72.Idx → EReal) (ix3 b n q) = aV m c (ix3 b n j) :=
  (congrFun (V_small m c) (ix3 b n q)).trans
    (concatenate_apply_piece (t := S64x512x72) (a := (2 : Fin 3)) (xs := smallPieces m c) (h := Facts₀.concatenates_S64x512x17_S64x512x4_S64x512x51_S64x512x72_d2) (j := ix3 b n q)
      (k := 0) (hk := by show (0 : ℕ) < 3; omega) (s₁ := S64x512x17) (x₁ := (aV m c)) (hxk := rfl) (hr := rfl) (pre := 0) (hpre := rfl) (i := ix3 b n j)
      (hi := fun a ha => match a with | ⟨0, _⟩ => rfl | ⟨1, _⟩ => rfl | ⟨2, _⟩ => absurd rfl ha)
      (ha := by show 0 + j.val = q.val; omega))

/-- Small feature 17 + j, j < 4, is box coordinate j. -/
theorem small_box (b : Fin 64) (n : Fin 512) (q : Fin 72) (j : Fin 4) (hq : q.val = 17 + j.val) :
    (Fr.V m c main_v3 : S64x512x72.Idx → EReal) (ix3 b n q) = aB m c (ix3 b n j) :=
  (congrFun (V_small m c) (ix3 b n q)).trans
    (concatenate_apply_piece (t := S64x512x72) (a := (2 : Fin 3)) (xs := smallPieces m c) (h := Facts₀.concatenates_S64x512x17_S64x512x4_S64x512x51_S64x512x72_d2) (j := ix3 b n q)
      (k := 1) (hk := by show (1 : ℕ) < 3; omega) (s₁ := S64x512x4) (x₁ := (aB m c)) (hxk := rfl) (hr := rfl) (pre := 17) (hpre := rfl) (i := ix3 b n j)
      (hi := fun a ha => match a with | ⟨0, _⟩ => rfl | ⟨1, _⟩ => rfl | ⟨2, _⟩ => absurd rfl ha)
      (ha := by show 17 + j.val = q.val; omega))

/-- Small feature 21 + j, j < 51, is flattened keypoint number j. -/
theorem small_kp (b : Fin 64) (n : Fin 512) (q : Fin 72) (j : Fin 51) (hq : q.val = 21 + j.val) :
    (Fr.V m c main_v3 : S64x512x72.Idx → EReal) (ix3 b n q) = aK m c (ix3 b n j) :=
  (congrFun (V_small m c) (ix3 b n q)).trans
    (concatenate_apply_piece (t := S64x512x72) (a := (2 : Fin 3)) (xs := smallPieces m c) (h := Facts₀.concatenates_S64x512x17_S64x512x4_S64x512x51_S64x512x72_d2) (j := ix3 b n q)
      (k := 2) (hk := by show (2 : ℕ) < 3; omega) (s₁ := S64x512x51) (x₁ := (aK m c)) (hxk := rfl) (hr := rfl) (pre := 21) (hpre := rfl) (i := ix3 b n j)
      (hi := fun a ha => match a with | ⟨0, _⟩ => rfl | ⟨1, _⟩ => rfl | ⟨2, _⟩ => absurd rfl ha)
      (ha := by show 21 + j.val = q.val; omega))

/-- The mask column at (b, n, 0) is the mask bit of (b, n) read as a number. -/
theorem mask_at (b : Fin 64) (n : Fin 512) (u : Fin 1) :
    (Fr.V m c main_v2 : S64x512x1.Idx → EReal) (ix3 b n u) = (((ak m c (ix2 b n)).toNat : ℝ) : EReal) :=
  (congrFun (V_mask m c) (ix3 b n u)).trans
    (broadcastInDim_apply _ Facts₀.bcast_S64x512_S64x512x1_0_1 _ (ix3 b n u) (ix2 b n) (fun a => match a with
      | ⟨0, _⟩ => by show b.val = if (64 : Nat) = 1 then 0 else b.val; rw [if_neg (by decide)]
      | ⟨1, _⟩ => by show n.val = if (512 : Nat) = 1 then 0 else n.val; rw [if_neg (by decide)]))

/-- Entry (e, t) of the [1024,1024] weights is the appearance weight of token t at embedding coordinate e. -/
theorem We_at (e t : Fin 1024) : (Fr.V m c main_v6 : S1024x1024.Idx → EReal) (ix2 e t) = aW m c (wE t e) :=
  (congrFun (V_We m c) (ix2 e t)).trans
    ((extractStridedSlice_apply _ _ Facts₀.slices_S1041x1024_S1024x1024_0_0 (ix2 e t) (ix2 (⟨e.val, by have := e.isLt; omega⟩ : Fin 1041) t)
        (fun a => match a with
          | ⟨0, _⟩ => by show e.val = 0 + e.val; omega
          | ⟨1, _⟩ => by show t.val = 0 + t.val; omega)).trans
      (transpose_ix2_apply (aW m c) Facts₀.transposes_S1024x1041_S1041x1024_1_0 _ t))

/-- Row q < 17 of the [72,1024] weights is the appearance weights' column 1024 + q. -/
theorem Ws_vis (q : Fin 72) (j : Fin 17) (hq : q.val = j.val) (t : Fin 1024) :
    (Fr.V m c main_v12 : S72x1024.Idx → EReal) (ix2 q t) = aW m c (wV t j) :=
  (congrFun (V_Ws m c) (ix2 q t)).trans
    ((concatenate_apply_piece (t := S72x1024) (a := (0 : Fin 2)) (xs := wsPieces m c) (h := Facts₀.concatenates_S17x1024_S4x1024_S51x1024_S72x1024_d0) (j := ix2 q t)
      (k := 0) (hk := by show (0 : ℕ) < 3; omega) (s₁ := S17x1024) (x₁ := _) (hxk := rfl) (hr := rfl) (pre := 0) (hpre := rfl) (i := ix2 j t)
        (hi := fun a ha => match a with | ⟨0, _⟩ => absurd rfl ha | ⟨1, _⟩ => rfl)
        (ha := by show 0 + j.val = q.val; omega)).trans
      ((extractStridedSlice_apply _ _ Facts₀.slices_S1041x1024_S17x1024_1024_0 (ix2 j t) (ix2 (⟨1024 + j.val, by have := j.isLt; omega⟩ : Fin 1041) t)
          (fun a => match a with
            | ⟨0, _⟩ => by show 1024 + j.val = 1024 + j.val; rfl
            | ⟨1, _⟩ => by show t.val = 0 + t.val; omega)).trans
        (transpose_ix2_apply (aW m c) Facts₀.transposes_S1024x1041_S1041x1024_1_0 _ t)))

/-- Row 17 + j, j < 4, is the spatio-temporal weights' column j. -/
theorem Ws_box (q : Fin 72) (j : Fin 4) (hq : q.val = 17 + j.val) (t : Fin 1024) :
    (Fr.V m c main_v12 : S72x1024.Idx → EReal) (ix2 q t) = aU m c (wB t j) :=
  (congrFun (V_Ws m c) (ix2 q t)).trans
    ((concatenate_apply_piece (t := S72x1024) (a := (0 : Fin 2)) (xs := wsPieces m c) (h := Facts₀.concatenates_S17x1024_S4x1024_S51x1024_S72x1024_d0) (j := ix2 q t)
      (k := 1) (hk := by show (1 : ℕ) < 3; omega) (s₁ := S4x1024) (x₁ := _) (hxk := rfl) (hr := rfl) (pre := 17) (hpre := rfl) (i := ix2 j t)
        (hi := fun a ha => match a with | ⟨0, _⟩ => absurd rfl ha | ⟨1, _⟩ => rfl)
        (ha := by show 17 + j.val = q.val; omega)).trans
      ((extractStridedSlice_apply _ _ Facts₀.slices_S55x1024_S4x1024_0_0 (ix2 j t) (ix2 (⟨j.val, by have := j.isLt; omega⟩ : Fin 55) t)
          (fun a => match a with
            | ⟨0, _⟩ => by show j.val = 0 + j.val; omega
            | ⟨1, _⟩ => by show t.val = 0 + t.val; omega)).trans
        (transpose_ix2_apply (aU m c) Facts₀.transposes_S1024x55_S55x1024_1_0 _ t)))

/-- Row 21 + j, j < 51, is the spatio-temporal weights' column 4 + j. -/
theorem Ws_kp (q : Fin 72) (j : Fin 51) (hq : q.val = 21 + j.val) (t : Fin 1024) :
    (Fr.V m c main_v12 : S72x1024.Idx → EReal) (ix2 q t) = aU m c (wK t j) :=
  (congrFun (V_Ws m c) (ix2 q t)).trans
    ((concatenate_apply_piece (t := S72x1024) (a := (0 : Fin 2)) (xs := wsPieces m c) (h := Facts₀.concatenates_S17x1024_S4x1024_S51x1024_S72x1024_d0) (j := ix2 q t)
      (k := 2) (hk := by show (2 : ℕ) < 3; omega) (s₁ := S51x1024) (x₁ := _) (hxk := rfl) (hr := rfl) (pre := 21) (hpre := rfl) (i := ix2 j t)
        (hi := fun a ha => match a with | ⟨0, _⟩ => absurd rfl ha | ⟨1, _⟩ => rfl)
        (ha := by show 21 + j.val = q.val; omega)).trans
      ((extractStridedSlice_apply _ _ Facts₀.slices_S55x1024_S51x1024_4_0 (ix2 j t) (ix2 (⟨4 + j.val, by have := j.isLt; omega⟩ : Fin 55) t)
          (fun a => match a with
            | ⟨0, _⟩ => by show 4 + j.val = 4 + j.val; rfl
            | ⟨1, _⟩ => by show t.val = 0 + t.val; omega)).trans
        (transpose_ix2_apply (aU m c) Facts₀.transposes_S1024x55_S55x1024_1_0 _ t)))

/-- The bias row at (0, t) is the sum of the two bias vectors at t. -/
theorem bias_at (u : Fin 1) (t : Fin 1024) :
    (Fr.V m c main_v14 : S1x1024.Idx → EReal) (ix2 u t) = ap m c (ix1 t) + aq m c (ix1 t) :=
  (congrFun (V_bias m c) (ix2 u t)).trans
    (shapeCast_apply _ Facts₀.shapeCasts_S1024_S1x1024 (ix2 u t) (ix1 t) (by
      have hu : u.val = 0 := by omega
      rw [Shape.rowMajor_val_one, Shape.rowMajor_val_two]
      show t.val = u.val * 1024 + t.val
      rw [hu, Nat.zero_mul, Nat.zero_add]))

end Cert.KernelIdeal.Val

end
-- ==== Proof.KernelTokens.lean ====
/-
  The kernel's result array after the run is the specification. Point `t` of the grid handles batch row `t`: its
  embeddings, small-feature and mask blocks are rows `t` of their arrays, the three weight operands are whole at
  every point, and its output block is row `t` of the result. The stored block read at (0, n, k) is therefore the
  specification at (t, n, k) once each block entry is read as an entry of the argument arrays and the 72 small
  features are split into their 17 + 4 + 51 parts; the 64 output blocks tile the result.
-/
import proofs.«145159_j11089605558540_2_alg».proof.Proof.BodyIdeal
import proofs.«145159_j11089605558540_2_alg».proof.Proof.StoredBlock
import proofs.«145159_j11089605558540_2_alg».proof.Proof.RegionArrays
import Idealize.ShloMosaic.Lib.Pipeline.Value

set_option maxRecDepth 16384

noncomputable section

namespace Cert.KernelIdeal.Val

open Cert.KernelIdeal Cert.KernelIdeal.Gen Cert.TokenSpec
open Idealize.ShloMosaic Idealize.ShloMosaic.TcCoe Idealize.SL.Sem Idealize.ShloMosaic.ValueIdx
open Idealize.ShloMosaic.Pipeline (Dat)

variable (m : (ℓ : Loc nD τ sig) → Buf (Elt Ideal) ℓ) (ρ : Dev nD → PrngReg) (c : Dev nD)

/-- The specification at the argument arrays. -/
abbrev Gm : S64x512x1024.Idx → EReal :=
  G (aE m c) (aV m c) (aB m c) (aK m c) (ak m c) (aW m c) (ap m c) (aU m c) (aq m c)

theorem hz3 : (![0, 0, 0] : Fin 3 → Nat) = fun _ => 0 := funext fun a => by fin_cases a <;> rfl
theorem hz2 : (![0, 0] : Fin 2 → Nat) = fun _ => 0 := funext fun a => by fin_cases a <;> rfl

/-- The printed index maps over the grid: the three per-row windows and the output sit at block (t, 0, 0), the three
    weight windows at block (0, 0). -/
theorem idx_facts : ∀ t : Fin cfg0.N,
    win0_0.index t (0 : Fin 3) = t.val ∧ win0_0.index t (1 : Fin 3) = 0 ∧ win0_0.index t (2 : Fin 3) = 0
    ∧ win0_1.index t (0 : Fin 3) = t.val ∧ win0_1.index t (1 : Fin 3) = 0 ∧ win0_1.index t (2 : Fin 3) = 0
    ∧ win0_2.index t (0 : Fin 3) = t.val ∧ win0_2.index t (1 : Fin 3) = 0 ∧ win0_2.index t (2 : Fin 3) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 3) = t.val ∧ win0_6.index t (1 : Fin 3) = 0 ∧ win0_6.index t (2 : Fin 3) = 0 :=
  (by decide +kernel : ∀ t : Fin grid0.N, _)

/-- The batch row a grid point handles. -/
abbrev row (t : Fin cfg0.N) : Fin 64 := ⟨t.val, lt_of_lt_of_eq t.isLt N_0⟩

/-! ## Each input block, read at an entry, as an entry of its array -/

theorem blk_emb (t : Fin cfg0.N) (u : Fin 1) (n : Fin 512) (e : Fin 1024) :
    (Fr.iblk m c 0 t : Vec Ideal S1x512x1024 .f32) (ix3 u n e) = aE m c (ix3 (row t) n e) := by
  obtain ⟨h0, h1, h2, -⟩ := idx_facts t
  unfold Fr.iblk
  rw [View.read_apply]
  show Fr.V m c main_arg0 _ = _
  rw [Fr.V_main_arg0]
  show aE m c _ = aE m c _
  congr 1
  funext a
  apply Fin.ext
  match a with
  | ⟨0, _⟩ => show win0_0.index t (0 : Fin 3) * 1 + 1 * u.val = t.val; have := u.isLt; omega
  | ⟨1, _⟩ => show win0_0.index t (1 : Fin 3) * 512 + 1 * n.val = n.val; omega
  | ⟨2, _⟩ => show win0_0.index t (2 : Fin 3) * 1024 + 1 * e.val = e.val; omega

theorem blk_small (t : Fin cfg0.N) (u : Fin 1) (n : Fin 512) (q : Fin 72) :
    (Fr.iblk m c 1 t : Vec Ideal S1x512x72 .f32) (ix3 u n q) = (Fr.V m c main_v3 : S64x512x72.Idx → EReal) (ix3 (row t) n q) := by
  obtain ⟨-, -, -, h0, h1, h2, -⟩ := idx_facts t
  unfold Fr.iblk
  rw [View.read_apply]
  show (Fr.V m c main_v3 : S64x512x72.Idx → EReal) _ = _
  congr 1
  funext a
  apply Fin.ext
  match a with
  | ⟨0, _⟩ => show win0_1.index t (0 : Fin 3) * 1 + 1 * u.val = t.val; have := u.isLt; omega
  | ⟨1, _⟩ => show win0_1.index t (1 : Fin 3) * 512 + 1 * n.val = n.val; omega
  | ⟨2, _⟩ => show win0_1.index t (2 : Fin 3) * 72 + 1 * q.val = q.val; omega

theorem blk_mask (t : Fin cfg0.N) (u : Fin 1) (n : Fin 512) (v : Fin 1) :
    (Fr.iblk m c 2 t : Vec Ideal S1x512x1 .f32) (ix3 u n v) = (Fr.V m c main_v2 : S64x512x1.Idx → EReal) (ix3 (row t) n v) := by
  obtain ⟨-, -, -, -, -, -, h0, h1, h2, -⟩ := idx_facts t
  unfold Fr.iblk
  rw [View.read_apply]
  show (Fr.V m c main_v2 : S64x512x1.Idx → EReal) _ = _
  congr 1
  funext a
  apply Fin.ext
  match a with
  | ⟨0, _⟩ => show win0_2.index t (0 : Fin 3) * 1 + 1 * u.val = t.val; have := u.isLt; omega
  | ⟨1, _⟩ => show win0_2.index t (1 : Fin 3) * 512 + 1 * n.val = n.val; omega
  | ⟨2, _⟩ => show win0_2.index t (2 : Fin 3) * 1 + 1 * v.val = v.val; omega

theorem blk_We (t : Fin cfg0.N) (e k : Fin 1024) :
    (Fr.iblk m c 3 t : Vec Ideal S1024x1024 .bf16) (ix2 e k) = (Fr.V m c main_v6 : S1024x1024.Idx → EReal) (ix2 e k) := by
  obtain ⟨-, -, -, -, -, -, -, -, -, h0, h1, -⟩ := idx_facts t
  unfold Fr.iblk
  rw [View.read_apply]
  show (Fr.V m c main_v6 : S1024x1024.Idx → EReal) _ = _
  congr 1
  funext a
  apply Fin.ext
  match a with
  | ⟨0, _⟩ => show win0_3.index t (0 : Fin 2) * 1024 + 1 * e.val = e.val; omega
  | ⟨1, _⟩ => show win0_3.index t (1 : Fin 2) * 1024 + 1 * k.val = k.val; omega

theorem blk_Ws (t : Fin cfg0.N) (q : Fin 72) (k : Fin 1024) :
    (Fr.iblk m c 4 t : Vec Ideal S72x1024 .bf16) (ix2 q k) = (Fr.V m c main_v12 : S72x1024.Idx → EReal) (ix2 q k) := by
  obtain ⟨-, -, -, -, -, -, -, -, -, -, -, h0, h1, -⟩ := idx_facts t
  unfold Fr.iblk
  rw [View.read_apply]
  show (Fr.V m c main_v12 : S72x1024.Idx → EReal) _ = _
  congr 1
  funext a
  apply Fin.ext
  match a with
  | ⟨0, _⟩ => show win0_4.index t (0 : Fin 2) * 72 + 1 * q.val = q.val; omega
  | ⟨1, _⟩ => show win0_4.index t (1 : Fin 2) * 1024 + 1 * k.val = k.val; omega

theorem blk_bias (t : Fin cfg0.N) (u : Fin 1) (k : Fin 1024) :
    (Fr.iblk m c 5 t : Vec Ideal S1x1024 .f32) (ix2 u k) = (Fr.V m c main_v14 : S1x1024.Idx → EReal) (ix2 u k) := by
  obtain ⟨-, -, -, -, -, -, -, -, -, -, -, -, -, h0, h1, -⟩ := idx_facts t
  unfold Fr.iblk
  rw [View.read_apply]
  show (Fr.V m c main_v14 : S1x1024.Idx → EReal) _ = _
  congr 1
  funext a
  apply Fin.ext
  match a with
  | ⟨0, _⟩ => show win0_5.index t (0 : Fin 2) * 1 + 1 * u.val = u.val; omega
  | ⟨1, _⟩ => show win0_5.index t (1 : Fin 2) * 1024 + 1 * k.val = k.val; omega

/-! ## The small features' 72 coordinates as 17 + 4 + 51 -/

/-- The small-feature product of point `t`'s blocks, split into its visibility, box and keypoint parts. -/
theorem small_sum (t : Fin cfg0.N) (n : Fin 512) (k : Fin 1024) (x1 : Vec Ideal S1x512x72 .f32) (x4 : Vec Ideal S72x1024 .bf16)
    (h1 : ∀ q : Fin 72, x1 (ix3 (0 : Fin 1) n q) = (Fr.V m c main_v3 : S64x512x72.Idx → EReal) (ix3 (row t) n q))
    (h4 : ∀ q : Fin 72, x4 (ix2 q k) = (Fr.V m c main_v12 : S72x1024.Idx → EReal) (ix2 q k)) :
    ∑ q : Fin 72, x1 (ix3 (0 : Fin 1) n q) * x4 (ix2 q k)
      = sV (aV m c) (aW m c) (row t) n k + (sB (aB m c) (aU m c) (row t) n k + sK (aK m c) (aU m c) (row t) n k) := by
  have key : ∀ f : Fin (17 + (4 + 51)) → EReal,
      ∑ q : Fin (17 + (4 + 51)), f q = ∑ j : Fin 17, f (Fin.castAdd (4 + 51) j)
        + (∑ j : Fin 4, f (Fin.natAdd 17 (Fin.castAdd 51 j)) + ∑ j : Fin 51, f (Fin.natAdd 17 (Fin.natAdd 4 j))) :=
    fun f => (Fin.sum_univ_add f).trans (congrArg₂ (· + ·) rfl (Fin.sum_univ_add _))
  refine (key _).trans ?_
  unfold sV sB sK
  refine congrArg₂ (· + ·) (Finset.sum_congr rfl fun j _ => ?_)
    (congrArg₂ (· + ·) (Finset.sum_congr rfl fun j _ => ?_) (Finset.sum_congr rfl fun j _ => ?_))
  · exact congrArg₂ (· * ·) ((h1 _).trans (small_vis m c (row t) n (Fin.castAdd (4 + 51) j) j rfl))
      ((h4 _).trans (Ws_vis m c (Fin.castAdd (4 + 51) j) j rfl k))
  · exact congrArg₂ (· * ·) ((h1 _).trans (small_box m c (row t) n (Fin.natAdd 17 (Fin.castAdd 51 j)) j rfl))
      ((h4 _).trans (Ws_box m c (Fin.natAdd 17 (Fin.castAdd 51 j)) j rfl k))
  · exact congrArg₂ (· * ·)
      ((h1 _).trans (small_kp m c (row t) n (Fin.natAdd 17 (Fin.natAdd 4 j)) j (by show 17 + (4 + j.val) = 21 + j.val; omega)))
      ((h4 _).trans (Ws_kp m c (Fin.natAdd 17 (Fin.natAdd 4 j)) j (by show 17 + (4 + j.val) = 21 + j.val; omega) k))

/-! ## What a point writes back, the cover, the run -/

/-- Point `t` writes back block `t` of the specification. -/
theorem flushed_eq (t : Fin cfg0.N) :
    (Fr.dats m 0 c).flushed 6 t = ((cfg0.win 6).blk t).view.read (Elt Ideal) (Gm m c) := by
  show (cfg0.win 6).cut (grid0.coords t) ((Fr.dats m 0 c).after 6 t) = _
  rw [Fr.after0_6]
  unfold Fr.out0_6
  rw [View.canon_unit_zero hz3]
  simp only [View.ld_unit_zero (S := S1x512x1024) hz3, View.ld_unit_zero (S := S1x512x72) hz3,
    View.ld_unit_zero (S := S1x512x1) hz3, View.ld_unit_zero (S := S1024x1024) hz2,
    View.ld_unit_zero (S := S72x1024) hz2, View.ld_unit_zero (S := S1x1024) hz2]
  funext j
  obtain ⟨u, n, k, rfl⟩ : ∃ (u : Fin 1) (n : Fin 512) (k : Fin 1024), j = ix3 u n k := ⟨j 0, j 1, j 2, eq_ix3 j⟩
  obtain ⟨-, -, -, -, -, -, -, -, -, -, -, -, -, -, -, h0, h1, h2⟩ := idx_facts t
  have hemb : ((cfg0.win 6).blk t).view.emb (ix3 u n k) = (ix3 (row t) n k : S64x512x1024.Idx) := by
    funext a
    apply Fin.ext
    match a with
    | ⟨0, _⟩ => show win0_6.index t (0 : Fin 3) * 1 + 1 * u.val = t.val; have := u.isLt; omega
    | ⟨1, _⟩ => show win0_6.index t (1 : Fin 3) * 512 + 1 * n.val = n.val; omega
    | ⟨2, _⟩ => show win0_6.index t (2 : Fin 3) * 1024 + 1 * k.val = k.val; omega
  refine (pay_apply (Fr.iblk m c 0 t) (Fr.iblk m c 1 t) (Fr.iblk m c 2 t) (Fr.iblk m c 3 t) (Fr.iblk m c 4 t) (Fr.iblk m c 5 t) u n k).trans ?_
  rw [View.read_apply, hemb]
  show _ = (sE (aE m c) (aW m c) (row t) n k + (sV (aV m c) (aW m c) (row t) n k + (sB (aB m c) (aU m c) (row t) n k + sK (aK m c) (aU m c) (row t) n k))
      + (ap m c (ix1 k) + aq m c (ix1 k))) * (((ak m c (ix2 (row t) n)).toNat : ℝ) : EReal)
  refine congrArg₂ (· * ·) (congrArg₂ (· + ·) (congrArg₂ (· + ·) ?_ ?_) ?_) ?_
  · unfold sE
    exact Finset.sum_congr rfl fun e _ => congrArg₂ (· * ·) (blk_emb m c t 0 n e) ((blk_We m c t e k).trans (We_at m c e k))
  · exact small_sum m c t n k (Fr.iblk m c 1 t) (Fr.iblk m c 4 t) (fun q => blk_small m c t 0 n q) (fun q => blk_Ws m c t q k)
  · exact (blk_bias m c t 0 k).trans (bias_at m c 0 k)
  · exact (blk_mask m c t 0 n 0).trans (mask_at m c (row t) n 0)

/-- An index of the result is in point `t`'s block iff each coordinate is in the block's range on its axis. -/
theorem mem_blk (t : Fin cfg0.N) (i : S64x512x1024.Idx) :
    i ∈ ((cfg0.win 6).blk t).view.set ↔ ∀ a : Fin 3, win0_6.index t a * S1x512x1024.size a ≤ (i a).val ∧ (i a).val < win0_6.index t a * S1x512x1024.size a + S1x512x1024.size a := by
  show i ∈ ((View.whole main_v15).slice (win0_6.rect t)).set ↔ _
  rw [View.set_slice_whole, Rect.mem_set_unit]
  exact Iff.rfl

/-- The result array after the run is the specification: row b of the result is point b's block. -/
theorem final : (Fr.dats m 0 c).arrAt 6 cfg0.N = Gm m c :=
  (Fr.dats m 0 c).arrAt_eq_of_cover 6 (Gm m c) (fun t _ => flushed_eq m c t) fun i => by
    have hi0 : (i 0).val < 64 := (i 0).isLt
    have hi1 : (i 1).val < 512 := (i 1).isLt
    have hi2 : (i 2).val < 1024 := (i 2).isLt
    let t : Fin cfg0.N := ⟨(i 0).val, by rw [show cfg0.N = 64 from N_0]; exact hi0⟩
    obtain ⟨-, -, -, -, -, -, -, -, -, -, -, -, -, -, -, h0, h1, h2⟩ := idx_facts t
    refine ⟨t, flush0_6 t, ?_⟩
    rw [mem_blk]
    intro a
    match a with
    | ⟨0, _⟩ => show win0_6.index t (0 : Fin 3) * 1 ≤ (i 0).val ∧ (i 0).val < win0_6.index t (0 : Fin 3) * 1 + 1
                rw [h0]; show (i 0).val * 1 ≤ (i 0).val ∧ (i 0).val < (i 0).val * 1 + 1; omega
    | ⟨1, _⟩ => show win0_6.index t (1 : Fin 3) * 512 ≤ (i 1).val ∧ (i 1).val < win0_6.index t (1 : Fin 3) * 512 + 512; omega
    | ⟨2, _⟩ => show win0_6.index t (2 : Fin 3) * 1024 ≤ (i 2).val ∧ (i 2).val < win0_6.index t (2 : Fin 3) * 1024 + 1024; omega

/-- The run, read: the result array ends at the specification of the argument arrays, which end as launched. -/
theorem run : θ_run defs (onTc (τ := τ) (main (F := Ideal))) ⟨m, fun _ => 0, ρ⟩ fun r => ∀ c : Dev nD,
      r.2.mem ((c.tc : Thread nD τ).loc main_v15) = Gm m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8) :=
  (θ_run defs _ _).mono (fun r h c =>
      ⟨((h c).1 6).trans (final m c),
       ((h c).1 0).trans (((Fr.dats m 0 c).arrAt_in 0 rfl _).trans ((Fr.A_eq m c 0).trans (Fr.V_main_arg0 m c))),
       ((h c).2 main_arg1 (Pipeline.mem_restRefs_of main_arg1 (by decide) (by decide))).trans (Fr.V_main_arg1 m c),
       ((h c).2 main_arg2 (Pipeline.mem_restRefs_of main_arg2 (by decide) (by decide))).trans (Fr.V_main_arg2 m c),
       ((h c).2 main_arg3 (Pipeline.mem_restRefs_of main_arg3 (by decide) (by decide))).trans (Fr.V_main_arg3 m c),
       ((h c).2 main_arg4 (Pipeline.mem_restRefs_of main_arg4 (by decide) (by decide))).trans (Fr.V_main_arg4 m c),
       ((h c).2 main_arg5 (Pipeline.mem_restRefs_of main_arg5 (by decide) (by decide))).trans (Fr.V_main_arg5 m c),
       ((h c).2 main_arg6 (Pipeline.mem_restRefs_of main_arg6 (by decide) (by decide))).trans (Fr.V_main_arg6 m c),
       ((h c).2 main_arg7 (Pipeline.mem_restRefs_of main_arg7 (by decide) (by decide))).trans (Fr.V_main_arg7 m c),
       ((h c).2 main_arg8 (Pipeline.mem_restRefs_of main_arg8 (by decide) (by decide))).trans (Fr.V_main_arg8 m c)⟩)
    (Fr.run_main m ρ)

end Cert.KernelIdeal.Val

end
-- ==== Proof.RefTokens.lean ====
/-
  The reference, read at an entry, is the specification: its two `dot_general`s are sums over the joined axes of
  `[embeddings | visibility]` (1024 + 17 columns) and `[box | keypoints]` (4 + 51 columns), which split into the
  four partial products; each half gets its bias, is kept where the mask bit is 1 and replaced by 0 elsewhere, and
  the halves are added.
-/
import proofs.«145159_j11089605558540_2_alg».proof.Proof.Gen.ReferenceIdeal.Read
import proofs.«145159_j11089605558540_2_alg».proof.Proof.TokenSpec
import Idealize.ShloMosaic.Lib.ValueIdx
import Idealize.ShloMosaic.Lib.Pipeline.Value

set_option maxRecDepth 16384

noncomputable section

namespace Cert.ReferenceIdeal.RefVal

open Cert.ReferenceIdeal Cert.ReferenceIdeal.Gen Cert.ReferenceIdeal.Read Cert.TokenSpec
open Idealize.ShloMosaic Idealize.ShloMosaic.ValueIdx

variable (x0 : S64x512x1024.Idx → EReal) (x1 : S64x512x17.Idx → EReal) (x2 : S64x512x4.Idx → EReal)
  (x3 : S64x512x17x3.Idx → EReal) (x4 : S64x512.Idx → BitVec 1) (x5 : S1024x1041.Idx → EReal) (x6 : S1024.Idx → EReal)
  (x7 : S1024x55.Idx → EReal) (x8 : S1024.Idx → EReal)

/-- The appearance half's contraction over 1024 + 17 columns is the embeddings' part plus the visibility part. -/
theorem app_sum (b : Fin 64) (n : Fin 512) (t : Fin 1024) :
    ∑ k : Fin 1041, val_main_v0 (F := Ideal) x0 x1 (lidx_main_v4 (ix3 b n t) k) * x5 (ridx_main_v4 (ix3 b n t) k)
      = sE x0 x5 b n t + sV x1 x5 b n t := by
  have key : ∀ f : Fin (1024 + 17) → EReal,
      ∑ k : Fin (1024 + 17), f k = ∑ e : Fin 1024, f (Fin.castAdd 17 e) + ∑ j : Fin 17, f (Fin.natAdd 1024 j) :=
    fun f => Fin.sum_univ_add f
  refine (key _).trans ?_
  unfold sE sV
  refine congrArg₂ (· + ·) (Finset.sum_congr rfl fun e _ => ?_) (Finset.sum_congr rfl fun j _ => ?_)
  · refine congrArg₂ (· * ·) ?_ ?_
    · unfold val_main_v0
      exact concatenate_apply_piece (t := S64x512x1041) (a := (2 : Fin 3)) (xs := [⟨S64x512x1024, x0⟩, ⟨S64x512x17, x1⟩]) (h := Facts₀.concatenates_S64x512x1024_S64x512x17_S64x512x1041_d2) (j := lidx_main_v4 (ix3 b n t) (Fin.castAdd 17 e))
          (k := 0) (hk := by show (0 : ℕ) < 2; omega) (s₁ := S64x512x1024) (x₁ := x0) (hxk := rfl) (hr := rfl) (pre := 0) (hpre := rfl) (i := ix3 b n e)
          (hi := fun a ha => match a with | ⟨0, _⟩ => rfl | ⟨1, _⟩ => rfl | ⟨2, _⟩ => absurd rfl ha)
          (ha := by show 0 + e.val = e.val; omega)
    · exact congrArg x5 (funext fun a => Fin.ext (by match a with | ⟨0, _⟩ => rfl | ⟨1, _⟩ => rfl))
  · refine congrArg₂ (· * ·) ?_ ?_
    · unfold val_main_v0
      exact concatenate_apply_piece (t := S64x512x1041) (a := (2 : Fin 3)) (xs := [⟨S64x512x1024, x0⟩, ⟨S64x512x17, x1⟩]) (h := Facts₀.concatenates_S64x512x1024_S64x512x17_S64x512x1041_d2) (j := lidx_main_v4 (ix3 b n t) (Fin.natAdd 1024 j))
          (k := 1) (hk := by show (1 : ℕ) < 2; omega) (s₁ := S64x512x17) (x₁ := x1) (hxk := rfl) (hr := rfl) (pre := 1024) (hpre := rfl) (i := ix3 b n j)
          (hi := fun a ha => match a with | ⟨0, _⟩ => rfl | ⟨1, _⟩ => rfl | ⟨2, _⟩ => absurd rfl ha)
          (ha := by show 1024 + j.val = 1024 + j.val; rfl)
    · exact congrArg x5 (funext fun a => Fin.ext (by match a with | ⟨0, _⟩ => rfl | ⟨1, _⟩ => rfl))

/-- The spatio-temporal half's contraction over 4 + 51 columns is the box part plus the keypoint part. -/
theorem st_sum (b : Fin 64) (n : Fin 512) (t : Fin 1024) :
    ∑ k : Fin 55, val_main_v2 (F := Ideal) x2 x3 (lidx_main_v9 (ix3 b n t) k) * x7 (ridx_main_v9 (ix3 b n t) k)
      = sB x2 x7 b n t + sK (shapeCast S64x512x51 x3 Facts₀.shapeCasts_S64x512x17x3_S64x512x51) x7 b n t := by
  have key : ∀ f : Fin (4 + 51) → EReal,
      ∑ k : Fin (4 + 51), f k = ∑ e : Fin 4, f (Fin.castAdd 51 e) + ∑ j : Fin 51, f (Fin.natAdd 4 j) :=
    fun f => Fin.sum_univ_add f
  refine (key _).trans ?_
  unfold sB sK
  refine congrArg₂ (· + ·) (Finset.sum_congr rfl fun e _ => ?_) (Finset.sum_congr rfl fun j _ => ?_)
  · refine congrArg₂ (· * ·) ?_ ?_
    · unfold val_main_v2 val_main_v1
      exact concatenate_apply_piece (t := S64x512x55) (a := (2 : Fin 3)) (xs := [⟨S64x512x4, x2⟩, ⟨S64x512x51, shapeCast S64x512x51 x3 Facts₀.shapeCasts_S64x512x17x3_S64x512x51⟩]) (h := Facts₀.concatenates_S64x512x4_S64x512x51_S64x512x55_d2) (j := lidx_main_v9 (ix3 b n t) (Fin.castAdd 51 e))
          (k := 0) (hk := by show (0 : ℕ) < 2; omega) (s₁ := S64x512x4) (x₁ := x2) (hxk := rfl) (hr := rfl) (pre := 0) (hpre := rfl) (i := ix3 b n e)
          (hi := fun a ha => match a with | ⟨0, _⟩ => rfl | ⟨1, _⟩ => rfl | ⟨2, _⟩ => absurd rfl ha)
          (ha := by show 0 + e.val = e.val; omega)
    · exact congrArg x7 (funext fun a => Fin.ext (by match a with | ⟨0, _⟩ => rfl | ⟨1, _⟩ => rfl))
  · refine congrArg₂ (· * ·) ?_ ?_
    · unfold val_main_v2 val_main_v1
      exact concatenate_apply_piece (t := S64x512x55) (a := (2 : Fin 3)) (xs := [⟨S64x512x4, x2⟩, ⟨S64x512x51, shapeCast S64x512x51 x3 Facts₀.shapeCasts_S64x512x17x3_S64x512x51⟩]) (h := Facts₀.concatenates_S64x512x4_S64x512x51_S64x512x55_d2) (j := lidx_main_v9 (ix3 b n t) (Fin.natAdd 4 j))
          (k := 1) (hk := by show (1 : ℕ) < 2; omega) (s₁ := S64x512x51) (x₁ := _) (hxk := rfl) (hr := rfl) (pre := 4) (hpre := rfl) (i := ix3 b n j)
          (hi := fun a ha => match a with | ⟨0, _⟩ => rfl | ⟨1, _⟩ => rfl | ⟨2, _⟩ => absurd rfl ha)
          (ha := by show 4 + j.val = 4 + j.val; rfl)
    · exact congrArg x7 (funext fun a => Fin.ext (by match a with | ⟨0, _⟩ => rfl | ⟨1, _⟩ => rfl))

/-- The reference's result is the specification. -/
theorem ref_eq :
    val_main_v14 (F := Ideal) x0 x1 x2 x3 x4 x5 x6 x7 x8
      = G x0 x1 x2 (shapeCast S64x512x51 x3 Facts₀.shapeCasts_S64x512x17x3_S64x512x51) x4 x5 x6 x7 x8 := by
  funext i
  obtain ⟨b, n, t, rfl⟩ : ∃ (b : Fin 64) (n : Fin 512) (t : Fin 1024), i = ix3 b n t := ⟨i 0, i 1, i 2, eq_ix3 i⟩
  rw [val_main_v14_apply, val_main_v8_apply, val_main_v13_apply, val_main_v7_apply, val_main_v12_apply,
    val_main_v4_apply, val_main_v9_apply, val_main_v6_apply, val_main_v5_apply, val_main_v11_apply, val_main_v10_apply,
    val_main_call0_v1_apply, val_main_call1_v1_apply, val_main_v3_apply,
    val_main_call0_v2_apply, val_main_call1_v2_apply, val_main_call0_v0_apply, val_main_call1_v0_apply,
    val_main_cst_apply, val_main_cst_0_apply, app_sum, st_sum]
  have e4 : idx_main_v3 (idx_main_call0_v1 (ix3 b n t)) = ix2 b n :=
    funext fun a => Fin.ext (by match a with | ⟨0, _⟩ => rfl | ⟨1, _⟩ => rfl)
  have e6 : idx_main_v5 (idx_main_v6 (ix3 b n t)) = ix1 t :=
    funext fun a => Fin.ext (by match a with | ⟨0, _⟩ => rfl)
  have e8 : idx_main_v10 (idx_main_v11 (ix3 b n t)) = ix1 t :=
    funext fun a => Fin.ext (by match a with | ⟨0, _⟩ => rfl)
  rw [e4, e6, e8]
  simp only [Ideal.addf_def, Ideal.ofBits_def, Ideal.ofBits_zero_f32]
  exact masked_halves _ _ _ _ _ _ _

end Cert.ReferenceIdeal.RefVal

end
-- ==== Proof.lean ====
/-
  The proof of `Cert.Claim`: the three frames, the (empty) idealization ledger, and the equality of the idealized
  kernel and the idealized reference over the extended reals.

  The kernel computes, per batch row, `(E·Wₑ + S·Wₛ + (p + q)) · k`: the embeddings against the first 1024 columns
  of the appearance weights, the 72 small features (visibility | box | keypoints) against the stacked remaining
  weight columns, the two biases added once, and the mask bit as a factor 0 or 1. The reference computes
  `where(k, [E|V]·W + p, 0) + where(k, [B|K]·U + q, 0)`. Both are the function `Cert.TokenSpec.G` of the argument
  arrays: a contraction over joined columns is the sum of the parts' contractions, and the masked sum of two halves
  is the whole times the mask bit (`Cert.TokenSpec.masked_halves`). Each frame is the program's run with the result
  dropped.
-/
import proofs.«145159_j11089605558540_2_alg».proof.Defs
import proofs.«145159_j11089605558540_2_alg».proof.Proof.Gen.Kernel
import proofs.«145159_j11089605558540_2_alg».proof.Proof.Gen.Kernel.Skeleton
import proofs.«145159_j11089605558540_2_alg».proof.Proof.Gen.Kernel.Launch
import proofs.«145159_j11089605558540_2_alg».proof.Proof.Gen.Kernel.Points
import proofs.«145159_j11089605558540_2_alg».proof.Proof.Gen.KernelIdeal
import proofs.«145159_j11089605558540_2_alg».proof.Proof.Gen.KernelIdeal.Skeleton
import proofs.«145159_j11089605558540_2_alg».proof.Proof.Gen.KernelIdeal.Launch
import proofs.«145159_j11089605558540_2_alg».proof.Proof.Gen.KernelIdeal.Points
import proofs.«145159_j11089605558540_2_alg».proof.Proof.Gen.ReferenceIdeal
import proofs.«145159_j11089605558540_2_alg».proof.Proof.Gen.ReferenceIdeal.Run
import proofs.«145159_j11089605558540_2_alg».proof.Proof.Gen.ReferenceIdeal.Read
import proofs.«145159_j11089605558540_2_alg».proof.Proof.Gen.Pre_finite_inputs
import proofs.«145159_j11089605558540_2_alg».proof.Proof.BodyBits
import proofs.«145159_j11089605558540_2_alg».proof.Proof.KernelTokens
import proofs.«145159_j11089605558540_2_alg».proof.Proof.RefTokens
import Idealize.ShloMosaic.Adequacy
import Idealize.ShloMosaic.Init

noncomputable section

namespace Cert.Proof

open Idealize.ShloMosaic Idealize.ShloMosaic.TcCoe Idealize.SL.Sem

/-- The word-level kernel runs to the end, faults nowhere, and leaves its nine arguments as launched. -/
theorem frame_kernel : Cert.frame_Kernel := fun m ρ _ => Cert.Kernel.Fr.frame m ρ

/-- So does the idealized kernel. -/
theorem frame_kernelIdeal : Cert.frame_KernelIdeal := fun m ρ _ => Cert.KernelIdeal.Fr.frame m ρ

/-- The reference is host operations only: its frame is its run with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- At the ideal values both programs end with the specification of the (agreeing) argument arrays. -/
theorem algebraic : Cert.algebraic_KernelIdeal_ReferenceIdeal := by
  intro m ρ m' ρ' _ hagree
  refine ⟨fun c => Cert.KernelIdeal.Val.Gm m c, Cert.KernelIdeal.Val.run m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3, h4, h5, h6, h7, h8⟩ := hagree c
  rw [Cert.ReferenceIdeal.Read.val_main_v14_eq, Cert.ReferenceIdeal.RefVal.ref_eq, h0, h1, h2, h3, h4, h5, h6, h7, h8]

theorem claim : Cert.Claim := ⟨Cert.Kernel.Gen.facts, Cert.KernelIdeal.Gen.facts, Cert.ReferenceIdeal.Gen.facts, Cert.Pre_finite_inputs.Gen.facts,
  frame_kernel, frame_kernelIdeal, frame_reference, preserves, algebraic⟩

end Cert.Proof

end
